-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x3072 : Shape := ⟨2, ![1024, 3072]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x3072 : S_.BroadcastsInDim S1024x3072 (![] : Fin 0 → Fin S1024x3072.rank)
  reducesTo_S1024x3072_S_d0_1 : S1024x3072.ReducesTo [0, 1] S_

variable [Facts]

def fn {F : FTy → Type} [FloatOps F] (main_arg0 : FVec F S4x2048x1024 .f32) (main_arg1 : FVec F S1024x3072 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x3072 .f32 := Host.absf main_arg1
  let main_cst_0 : FVec F S_ .f32 := constant S_ .f32 0x7F800000#32
  let main_v5 : FVec F S1024x3072 .f32 := broadcastInDim S1024x3072 ![] bcast_S_S1024x3072 main_cst_0
  let main_v6 : IVec S1024x3072 1 := cmpf .olt main_v4 main_v5
  let main_c_1 : IVec S_ 1 := constantI S_ 1 1#1
  let main_v7 : IVec S_ 1 := (fun x v => Host.reduce IntOp.andi x v reducesTo_S1024x3072_S_d0_1 h_S_) main_v6 main_c_1
  let main_v8 : IVec S_ 1 := andi main_v3 main_v7
  main_v8
-- ==== Kernel.lean ====
abbrev S4x2048x1024 : Shape := ⟨3, ![4, 2048, 1024]⟩
abbrev S1024x3072 : Shape := ⟨2, ![1024, 3072]⟩
abbrev S8192x1024 : Shape := ⟨2, ![8192, 1024]⟩
abbrev S1024x2048 : Shape := ⟨2, ![1024, 2048]⟩
abbrev S1024x1024 : Shape := ⟨2, ![1024, 1024]⟩
abbrev S8192x2048 : Shape := ⟨2, ![8192, 2048]⟩
abbrev S256x1024 : Shape := ⟨2, ![256, 1024]⟩
abbrev S256x2048 : Shape := ⟨2, ![256, 2048]⟩
abbrev S4x2048x2048 : Shape := ⟨3, ![4, 2048, 2048]⟩
abbrev S1x2048x1024 : Shape := ⟨3, ![1, 2048, 1024]⟩
abbrev S1x128x1024 : Shape := ⟨3, ![1, 128, 1024]⟩
abbrev S2048x1024 : Shape := ⟨2, ![2048, 1024]⟩
abbrev S128x1024 : Shape := ⟨2, ![128, 1024]⟩
abbrev S2048x128 : Shape := ⟨2, ![2048, 128]⟩
abbrev S128 : Shape := ⟨1, ![128]⟩
abbrev S1x128 : Shape := ⟨2, ![1, 128]⟩

abbrev nBuf : Space → Nat
  | .hbm => 11
  | .vmem => 15
  | .smem => 0
  | _ => 0

abbrev bufTy : (tb : Table) → Fin (tcTables nBuf tb) → BufTy
  | .hbm, ⟨0, _⟩ => ⟨S4x2048x1024, .f32⟩
  | .hbm, ⟨1, _⟩ => ⟨S1024x3072, .f32⟩
  | .hbm, ⟨2, _⟩ => ⟨S8192x1024, .f32⟩
  | .hbm, ⟨3, _⟩ => ⟨S1024x2048, .f32⟩
  | .hbm, ⟨4, _⟩ => ⟨S1024x1024, .f32⟩
  | .hbm, ⟨5, _⟩ => ⟨S1024x1024, .bf16⟩
  | .hbm, ⟨6, _⟩ => ⟨S8192x2048, .f32⟩
  | .hbm, ⟨7, _⟩ => ⟨S8192x1024, .bf16⟩
  | .hbm, ⟨8, _⟩ => ⟨S4x2048x2048, .f32⟩
  | .hbm, ⟨9, _⟩ => ⟨S4x2048x1024, .bf16⟩
  | .hbm, ⟨10, _⟩ => ⟨S4x2048x1024, .f32⟩
  | .local _ .vmem, ⟨0, _⟩ => ⟨S256x1024, .f32⟩
  | .local _ .vmem, ⟨1, _⟩ => ⟨S256x1024, .f32⟩
  | .local _ .vmem, ⟨2, _⟩ => ⟨S1024x2048, .f32⟩
  | .local _ .vmem, ⟨3, _⟩ => ⟨S1024x1024, .bf16⟩
  | .local _ .vmem, ⟨4, _⟩ => ⟨S256x2048, .f32⟩
  | .local _ .vmem, ⟨5, _⟩ => ⟨S256x2048, .f32⟩
  | .local _ .vmem, ⟨6, _⟩ => ⟨S256x1024, .bf16⟩
  | .local _ .vmem, ⟨7, _⟩ => ⟨S256x1024, .bf16⟩
  | .local _ .vmem, ⟨8, _⟩ => ⟨S1x2048x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .bf16⟩
  | .local _ .vmem, ⟨12, _⟩ => ⟨S1x128x1024, .bf16⟩
  | .local _ .vmem, ⟨13, _⟩ => ⟨S1x2048x1024, .f32⟩
  | .local _ .vmem, ⟨14, _⟩ => ⟨S1x2048x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![4, 16], ![false, false]⟩

def k1_cond1 (i : grid1.Coords) : BitVec 1 :=
  let arg1 : BitVec 32 := BitVec.ofNat 32 (i 1).val
  let c0_i32 : BitVec 32 := 0#32
  let v20 : BitVec 1 := Scalar.cmpi .eq arg1 c0_i32
  let v21 : BitVec 32 := Scalar.extui v20
  let c0_i32_12 : BitVec 32 := 0#32
  let v22 : BitVec 1 := Scalar.cmpi .ne v21 c0_i32_12
  v22

def k1_cond2 (i : grid1.Coords) : BitVec 1 :=
  let arg1 : BitVec 32 := BitVec.ofNat 32 (i 1).val
  let c0_i32_13 : BitVec 32 := 0#32
  let v23 : BitVec 1 := Scalar.cmpi .ne arg1 c0_i32_13
  let v24 : BitVec 32 := Scalar.extui v23
  let c0_i32_14 : BitVec 32 := 0#32
  let v25 : BitVec 1 := Scalar.cmpi .ne v24 c0_i32_14
  v25

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S1x2048x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S1x128x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x128x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x2048x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S4x2048x1024_S8192x1024 : S4x2048x1024.ShapeCasts S8192x1024
  slices_S1024x3072_S1024x2048_0_0 : S1024x3072.Slices ![0, 0] S1024x2048
  slices_S1024x3072_S1024x1024_0_2048 : S1024x3072.Slices ![0, 2048] S1024x1024
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S256x2048_S256x2048_0_0 : ∀ a, (![0, 0] : Fin 2 → Nat) a + S256x2048.size a ≤ S256x2048.size a
  h_S256x2048 : 0 < S256x2048.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S256x1024_S256x1024_0_0 : (Rect.unit (s := S256x1024) ![0, 0] S256x1024.size inb_S256x1024_S256x1024_0_0).PackedRows (EltTy.packing .bf16)
  shapeCasts_S8192x2048_S4x2048x2048 : S8192x2048.ShapeCasts S4x2048x2048
  shapeCasts_S8192x1024_S4x2048x1024 : S8192x1024.ShapeCasts S4x2048x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  reduces_S2048x128_S128 : S2048x128.Reduces [0] S128
  shapeCasts_S128_S1x128 : S128.ShapeCasts S1x128
  broadcasts_S1x128_S2048x128 : S1x128.Broadcasts S2048x128
  shapeCasts_S2048x1024_S1x2048x1024 : S2048x1024.ShapeCasts S1x2048x1024
  dot_S256x1024_S1024x2048_S256x2048_1_0_0_1_n_n_wf : DotDims.WF S256x1024 S1024x2048 S256x2048 [1] [0] [0] [1] [] []
  dot_S256x1024_S1024x1024_S256x1024_1_0_0_1_n_n_wf : DotDims.WF S256x1024 S1024x1024 S256x1024 [1] [0] [0] [1] [] []
  dot_S2048x1024_S128x1024_S2048x128_1_1_0_0_n_n_wf : DotDims.WF S2048x1024 S128x1024 S2048x128 [1] [1] [0] [0] [] []
  dot_S2048x128_S128x1024_S2048x1024_1_0_0_1_n_n_wf : DotDims.WF S2048x128 S128x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x2048.size a
  hwx0_1 : ∀ i : grid0.Coords, EltTy.bits .f32 = 32 ∨ (Rect.block (s := S1024x2048) S1024x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S8192x2048.size a
  hwx0_3 : ∀ i : grid0.Coords, EltTy.bits .f32 = 32 ∨ (Rect.block (s := S8192x2048) S256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S8192x1024.size a
  hwx0_4 : ∀ i : grid0.Coords, EltTy.bits .bf16 = 32 ∨ (Rect.block (s := S8192x1024) S256x1024.size (cc0_transform_4 i) (hinb0_4 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x2048x1024.size a ≤ S4x2048x2048.size a
  hwx1_0 : ∀ i : grid1.Coords, EltTy.bits .f32 = 32 ∨ (Rect.block (s := S4x2048x2048) S1x2048x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x1024.size a ≤ S4x2048x2048.size a
  hwx1_1 : ∀ i : grid1.Coords, EltTy.bits .f32 = 32 ∨ (Rect.block (s := S4x2048x2048) S1x128x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128x1024.size a ≤ S4x2048x1024.size a
  hwx1_2 : ∀ i : grid1.Coords, EltTy.bits .bf16 = 32 ∨ (Rect.block (s := S4x2048x1024) S1x128x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048x1024.size a ≤ S4x2048x1024.size a
  hwx1_3 : ∀ i : grid1.Coords, EltTy.bits .f32 = 32 ∨ (Rect.block (s := S4x2048x1024) S1x2048x1024.size (cc1_transform_3 i) (hinb1_3 i)).WholeWords (EltTy.packing .f32)

variable [Facts₀]

def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S2048x1024_S128x1024_S2048x128_1_1_0_0_n_n : DotDims S2048x1024 S128x1024 S2048x128 where
  lhsContracting := [1]
  rhsContracting := [1]
  lhsNonContracting := [0]
  rhsNonContracting := [0]
  lhsBatch := []
  rhsBatch := []
  wf := dot_S2048x1024_S128x1024_S2048x128_1_1_0_0_n_n_wf
def dot_S2048x128_S128x1024_S2048x1024_1_0_0_1_n_n : DotDims S2048x128 S128x1024 S2048x1024 where
  lhsContracting := [1]
  rhsContracting := [0]
  lhsNonContracting := [0]
  rhsNonContracting := [1]
  lhsBatch := []
  rhsBatch := []
  wf := dot_S2048x128_S128x1024_S2048x1024_1_0_0_1_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S256x2048.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S256x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v5) S1x2048x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x128x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x128x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x2048x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond1 i == 1#1) && !(k1_cond2 i == 1#1) | ⟨_ + 4, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S1024x3072 : Shape := ⟨2, ![1024, 3072]⟩
abbrev S4x2048x3072 : Shape := ⟨3, ![4, 2048, 3072]⟩
abbrev S4x2048x2048 : Shape := ⟨3, ![4, 2048, 2048]⟩
abbrev S_ : Shape := ⟨0, ![]⟩
abbrev S4x2048 : Shape := ⟨2, ![4, 2048]⟩
abbrev S4x1x2048 : Shape := ⟨3, ![4, 1, 2048]⟩

abbrev nBuf : Space → Nat
  | .hbm => 25
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x3072, .f32⟩
  | .hbm, ⟨2, _⟩ => ⟨S4x2048x3072, .f32⟩
  | .hbm, ⟨3, _⟩ => ⟨S4x2048x1024, .f32⟩
  | .hbm, ⟨4, _⟩ => ⟨S4x2048x1024, .f32⟩
  | .hbm, ⟨5, _⟩ => ⟨S4x2048x1024, .f32⟩
  | .hbm, ⟨6, _⟩ => ⟨S4x2048x2048, .f32⟩
  | .hbm, ⟨7, _⟩ => ⟨S_, .f32⟩
  | .hbm, ⟨8, _⟩ => ⟨S4x2048x2048, .f32⟩
  | .hbm, ⟨9, _⟩ => ⟨S4x2048x2048, .f32⟩
  | .hbm, ⟨10, _⟩ => ⟨S_, .f32⟩
  | .hbm, ⟨11, _⟩ => ⟨S4x2048, .f32⟩
  | .hbm, ⟨12, _⟩ => ⟨S_, .f32⟩
  | .hbm, ⟨13, _⟩ => ⟨S4x2048, .f32⟩
  | .hbm, ⟨14, _⟩ => ⟨S4x2048, .f32⟩
  | .hbm, ⟨15, _⟩ => ⟨S4x1x2048, .f32⟩
  | .hbm, ⟨16, _⟩ => ⟨S4x2048x2048, .f32⟩
  | .hbm, ⟨17, _⟩ => ⟨S4x2048x2048, .f32⟩
  | .hbm, ⟨18, _⟩ => ⟨S4x2048x2048, .f32⟩
  | .hbm, ⟨19, _⟩ => ⟨S_, .f32⟩
  | .hbm, ⟨20, _⟩ => ⟨S4x2048, .f32⟩
  | .hbm, ⟨21, _⟩ => ⟨S4x1x2048, .f32⟩
  | .hbm, ⟨22, _⟩ => ⟨S4x2048x2048, .f32⟩
  | .hbm, ⟨23, _⟩ => ⟨S4x2048x2048, .f32⟩
  | .hbm, ⟨24, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]

class Facts₀ : Prop where
  slices_S4x2048x3072_S4x2048x1024_0_0_0 : S4x2048x3072.Slices ![0, 0, 0] S4x2048x1024
  slices_S4x2048x3072_S4x2048x1024_0_0_1024 : S4x2048x3072.Slices ![0, 0, 1024] S4x2048x1024
  slices_S4x2048x3072_S4x2048x1024_0_0_2048 : S4x2048x3072.Slices ![0, 0, 2048] S4x2048x1024
  bcast_S_S4x2048x2048 : S_.BroadcastsInDim S4x2048x2048 (![] : Fin 0 → Fin S4x2048x2048.rank)
  reducesTo_S4x2048x2048_S4x2048_d1 : S4x2048x2048.ReducesTo [1] S4x2048
  h_S_ : 0 < S_.numel
  bcast_S_S4x2048 : S_.BroadcastsInDim S4x2048 (![] : Fin 0 → Fin S4x2048.rank)
  bcast_S4x2048_S4x1x2048_0_2 : S4x2048.BroadcastsInDim S4x1x2048 (![0, 2] : Fin 2 → Fin S4x1x2048.rank)
  bcast_S4x1x2048_S4x2048x2048_0_1_2 : S4x1x2048.BroadcastsInDim S4x2048x2048 (![0, 1, 2] : Fin 3 → Fin S4x2048x2048.rank)
  dot_S4x2048x1024_S1024x3072_S4x2048x3072_2_0_01_1_n_n_wf : DotDims.WF S4x2048x1024 S1024x3072 S4x2048x3072 [2] [0] [0, 1] [1] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x3072_S4x2048x3072_2_0_01_1_n_n : DotDims S4x2048x1024 S1024x3072 S4x2048x3072 where
  lhsContracting := [2]
  rhsContracting := [0]
  lhsNonContracting := [0, 1]
  rhsNonContracting := [1]
  lhsBatch := []
  rhsBatch := []
  wf := dot_S4x2048x1024_S1024x3072_S4x2048x3072_2_0_01_1_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.KRegion0.lean ====
/- The frame half of REGION 0 (custom_call 0, the kernel cc0__qkv_kernel), at a parameter V — the
   TensorCore's buffer contents when the region is entered —, generic in the float instance: each window's block at a
   point, what the body leaves in each output window's buffer as the canon of its one store, the body's triple, the
   proof data of the pipeline and its body obligation. -/
import proofs.«136138_j13357348290569_2_alg».proof.Proof.Gen.Kernel.Launch
import proofs.«136138_j13357348290569_2_alg».proof.Proof.Gen.Kernel.Skeleton
import proofs.«136138_j13357348290569_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it (V). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is V's
    and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 (fetched at the first point only: its block index never moves) likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2 (fetched at the first point only) likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each the whole of its buffer -/

abbrev r0_0 : Rect S256x1024 := Rect.unit (s := S256x1024) ![0, 0] S256x1024.size Gen.inb_S256x1024_S256x1024_0_0
abbrev r0_1 : Rect S1024x2048 := Rect.unit (s := S1024x2048) ![0, 0] S1024x2048.size Gen.inb_S1024x2048_S1024x2048_0_0
abbrev r0_2 : Rect S1024x1024 := Rect.unit (s := S1024x1024) ![0, 0] S1024x1024.size Gen.inb_S1024x1024_S1024x1024_0_0
abbrev r0_3 : Rect S256x2048 := Rect.unit (s := S256x2048) ![0, 0] S256x2048.size Gen.inb_S256x2048_S256x2048_0_0

/-! ## What the body leaves in each output window's buffer -/

/-- Window 3's staging buffer after the body, from the input windows' blocks: its one store as a piece. -/
def out0_3 (x0 : Vec F S256x1024 .f32) (x1 : Vec F S1024x2048 .f32) : Vec F S256x2048 .f32 :=
  View.canon [⟨r0_3, k0_pay2 (View.ld x0 r0_0) (View.ld x1 r0_1)⟩]

/-- Window 4's staging buffer after the body: its one store as a piece. -/
def out0_4 (x0 : Vec F S256x1024 .f32) (x2 : Vec F S1024x1024 .bf16) : Vec F S256x1024 .bf16 :=
  View.canon [⟨r0_0, k0_pay3 (View.ld x0 r0_0) (View.ld x2 r0_2)⟩]

/-- The one store of window 3 is the whole buffer, so it covers it. -/
theorem cover0_3 (p0 : Vec F S256x2048 .f32) (y : S256x2048.Idx) :
    ∃ pc ∈ ([⟨r0_3, p0⟩] : List (View.Piece (Elt F) S256x2048 .f32)), y ∈ pc.1.set :=
  View.cover_of_tiled [⟨r0_3, p0⟩] S256x2048.size (by rfl) y

/-- The one store of window 4 is the whole buffer, so it covers it. -/
theorem cover0_4 (p0 : Vec F S256x1024 .bf16) (y : S256x1024.Idx) :
    ∃ pc ∈ ([⟨r0_0, p0⟩] : List (View.Piece (Elt F) S256x1024 .bf16)), y ∈ pc.1.set :=
  View.cover_of_tiled [⟨r0_0, p0⟩] S256x1024.size (by rfl) y

/-! ## The body's triple -/

set_option maxHeartbeats 4000000 in
/-- The kernel body on whole staging memrefs, the inputs' at read contents and the outputs' at anything, runs to the
    continuation holding the inputs' as they were and each output's at the canon of its store over the inputs'. Each
    output buffer is also loaded before it is stored: the value loaded is read by nothing. -/
theorem sound_kernel0 (c : Dev nD) (E : Set ℕ) (i : grid0.Coords)
    (arg1 : Memref sig .tc .vmem S256x1024 .f32) (harg1 : arg1.IsWhole) (arg2 : Memref sig .tc .vmem S1024x2048 .f32) (harg2 : arg2.IsWhole)
    (arg3 : Memref sig .tc .vmem S1024x1024 .bf16) (harg3 : arg3.IsWhole) (arg4 : Memref sig .tc .vmem S256x2048 .f32) (harg4 : arg4.IsWhole)
    (arg5 : Memref sig .tc .vmem S256x1024 .bf16) (harg5 : arg5.IsWhole)
    (x0 : Vec F S256x1024 .f32) (x1 : Vec F S1024x2048 .f32) (x2 : Vec F S1024x1024 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1) ∗ owns (c : Thread nD τ) arg5 fullShare (out0_4 x0 x2)) -∗ K ⟨⟩))
      ⊢ wp frame (wpE (defs₀ (F := F)) Variants.none c none) E (cc0__qkv_kernel i arg1 harg1 arg2 harg2 arg3 harg3 arg4 harg4 arg5 harg5) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The pipeline's proof data -/

/-- The proof data of pipeline 0 on core c: the arrays as the region finds them (V); after the body at point t each
    input's buffer at its block and each output's at the canon of its store over the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the kernel's triple applies; the invariant and
    the core's owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegion1.lean ====
/-
  Region 1 of the program: the attention kernel over the grid (batch, key block), at the contents V the
  TensorCore's buffers hold when the region is entered, for any float instance.

  A grid point (b, kt) reads the whole query block of batch b, the kt-th block of 128 keys and the kt-th block of
  128 values, and leaves in the output block of batch b: at kt = 0 the block's contribution itself; at kt > 0 what
  the point before left there plus the block's contribution.  The output block is written back after kt = 15.
  The query block and the key block are two windows on ONE array.
-/
import proofs.«136138_j13357348290569_2_alg».proof.Proof.Gen.Kernel.Launch
import proofs.«136138_j13357348290569_2_alg».proof.Proof.Gen.Kernel.Skeleton
import proofs.«136138_j13357348290569_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which case a grid point is in -/

/-- The first condition (kt = 0) holds at the points ≡ 0 (mod 16). -/
theorem hcond1_1 : ∀ t : Fin cfg1.N, k1_cond1 (grid1.coords t) = 1#1 ↔ t.val % 16 = 0 :=
  (by decide +kernel : ∀ t : Fin grid1.N, k1_cond1 (grid1.coords t) = 1#1 ↔ t.val % 16 = 0)

/-- The second condition (kt ≠ 0) holds at the other points. -/
theorem hcond1_2 : ∀ t : Fin cfg1.N, k1_cond2 (grid1.coords t) = 1#1 ↔ ¬ t.val % 16 = 0 :=
  (by decide +kernel : ∀ t : Fin grid1.N, k1_cond2 (grid1.coords t) = 1#1 ↔ ¬ t.val % 16 = 0)

/-- No grid point leaves the output block untouched: one of the two conditions holds everywhere. -/
theorem live1_3 : ∀ i : grid1.Coords, cfg1.idle 3 i = false := by decide +kernel

/-! ## The body's accesses -/

abbrev rq : Rect S1x2048x1024 := Rect.unit (s := S1x2048x1024) ![0, 0, 0] S1x2048x1024.size inb_S1x2048x1024_S1x2048x1024_0_0_0
abbrev rk : Rect S1x128x1024 := Rect.unit (s := S1x128x1024) ![0, 0, 0] S1x128x1024.size inb_S1x128x1024_S1x128x1024_0_0_0

/-- What a point with kt = 0 leaves in the output block: the one store of the block's contribution. -/
def outA (x0 : Vec F S1x2048x1024 .f32) (x1 : Vec F S1x128x1024 .f32) (x2 : Vec F S1x128x1024 .bf16) : Vec F S1x2048x1024 .f32 :=
  View.canon [⟨rq, k1_pay2 (View.ld x0 rq) (View.ld x1 rk) (View.ld x2 rk)⟩]

/-- What a point with kt > 0 leaves there: the one store of what it found plus the block's contribution. -/
def outB (x0 : Vec F S1x2048x1024 .f32) (x1 : Vec F S1x128x1024 .f32) (x2 : Vec F S1x128x1024 .bf16) (xo : Vec F S1x2048x1024 .f32) : Vec F S1x2048x1024 .f32 :=
  View.canon [⟨rq, k1_pay3 (View.ld x0 rq) (View.ld x1 rk) (View.ld x2 rk) (View.ld xo rq)⟩]

/-- The one store covers the block. -/
theorem cover_q (p0 : Vec F S1x2048x1024 .f32) (y : S1x2048x1024.Idx) :
    ∃ pc ∈ ([⟨rq, p0⟩] : List (View.Piece (Elt F) S1x2048x1024 .f32)), y ∈ pc.1.set :=
  View.cover_of_tiled [⟨rq, p0⟩] S1x2048x1024.size (by rfl) y

/-! ## The body's triple, case by case -/

set_option maxHeartbeats 1000000 in
/-- At kt = 0: the inputs' buffers at their contents and the output's at anything, the body runs and leaves the inputs'
    as they were and the output's at `outA` of them. -/
theorem sound_kernel1_A (c : Dev nD) (E : Set ℕ) (i : grid1.Coords) (arg2 : Memref sig .tc .vmem S1x2048x1024 .f32) (harg2 : arg2.IsWhole)
    (arg3 : Memref sig .tc .vmem S1x128x1024 .f32) (harg3 : arg3.IsWhole) (arg4 : Memref sig .tc .vmem S1x128x1024 .bf16) (harg4 : arg4.IsWhole)
    (arg5 : Memref sig .tc .vmem S1x2048x1024 .f32) (harg5 : arg5.IsWhole) (hc1 : k1_cond1 i = 1#1) (hc2 : ¬ k1_cond2 i = 1#1)
    (x0 : Vec F S1x2048x1024 .f32) (x1 : Vec F S1x128x1024 .f32) (x2 : Vec F S1x128x1024 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outA x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_q _)

set_option maxHeartbeats 1000000 in
/-- At kt > 0: the inputs' buffers at their contents and the output's at what the point before left (`xo`), the body runs
    and leaves the inputs' as they were and the output's at `outB` of them. -/
theorem sound_kernel1_B (c : Dev nD) (E : Set ℕ) (i : grid1.Coords) (arg2 : Memref sig .tc .vmem S1x2048x1024 .f32) (harg2 : arg2.IsWhole)
    (arg3 : Memref sig .tc .vmem S1x128x1024 .f32) (harg3 : arg3.IsWhole) (arg4 : Memref sig .tc .vmem S1x128x1024 .bf16) (harg4 : arg4.IsWhole)
    (arg5 : Memref sig .tc .vmem S1x2048x1024 .f32) (harg5 : arg5.IsWhole) (hc1 : ¬ k1_cond1 i = 1#1) (hc2 : k1_cond2 i = 1#1)
    (x0 : Vec F S1x2048x1024 .f32) (x1 : Vec F S1x128x1024 .f32) (x2 : Vec F S1x128x1024 .bf16) (xo : Vec F S1x2048x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo
        ∗ (iprop(owns (c : Thread nD τ) arg2 fullShare x0 ∗ owns (c : Thread nD τ) arg3 fullShare x1 ∗ owns (c : Thread nD τ) arg4 fullShare x2
            ∗ owns (c : Thread nD τ) arg5 fullShare (outB x0 x1 x2 xo)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_q _)

section Region

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, the block
    index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the output block holds after each point -/

/-- THE ACCUMULATION: what the output's staging buffer holds after the body at position `n` of the grid. -/
def outsAt1 (c : Dev nD) : (n : ℕ) → n < cfg1.N → Vec F S1x2048x1024 .f32
  | 0, hn => outA (iblk1 V c 0 ⟨0, hn⟩) (iblk1 V c 1 ⟨0, hn⟩) (iblk1 V c 2 ⟨0, hn⟩)
  | n + 1, hn =>
    if (n + 1) % 16 = 0 then
      outA (iblk1 V c 0 ⟨n + 1, hn⟩) (iblk1 V c 1 ⟨n + 1, hn⟩) (iblk1 V c 2 ⟨n + 1, hn⟩)
    else
      outB (iblk1 V c 0 ⟨n + 1, hn⟩) (iblk1 V c 1 ⟨n + 1, hn⟩) (iblk1 V c 2 ⟨n + 1, hn⟩) (outsAt1 c n (Nat.lt_of_succ_lt hn))

/-- At a point with kt = 0. -/
theorem outsAt1_A (c : Dev nD) (t : Fin cfg1.N) (h0 : t.val % 16 = 0) :
    outsAt1 V c t.val t.isLt = outA (iblk1 V c 0 t) (iblk1 V c 1 t) (iblk1 V c 2 t) := by
  obtain ⟨n, hn⟩ := t
  cases n with
  | zero => exact rfl
  | succ n => exact (if_pos h0).trans rfl

/-- At a point with kt > 0: over what the point before left. -/
theorem outsAt1_B (c : Dev nD) (t : Fin cfg1.N) (h0 : ¬ t.val % 16 = 0) :
    outsAt1 V c t.val t.isLt = outB (iblk1 V c 0 t) (iblk1 V c 1 t) (iblk1 V c 2 t)
      (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-! ## The pipeline's proof data -/

/-- The proof data of pipeline 1 on core `c`: the arrays as the region finds them; after the body each input's buffer at
    its block and the output's at `outsAt1`; the two windows on the one array hold it at the two halves of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outsAt1 V c t.val t.isLt
  Φ _ := Pipeline.ΦA spec1 c
  q w := match w with
    | ⟨0, _⟩ => fullShare.left
    | ⟨1, _⟩ => fullShare.right
    | ⟨2, _⟩ => fullShare
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outsAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- At a point with kt > 0 the output's staging buffer holds what the body left at the point before: the point is not the
    first, and the block was not written back in between (that happens after kt = 15 only). -/
theorem before1_3_B (c : Dev nD) (t : Fin cfg1.N) (h0 : ¬ t.val % 16 = 0) (d) :
    (dat1 V c).before 3 t d = outsAt1 V c (t.val - 1) (Nat.lt_of_le_of_lt (Nat.sub_le _ _) t.isLt) := by
  have hN : t.val < 64 := lt_of_lt_of_eq t.isLt (show cfg1.N = 64 from N_1)
  rw [Dat.before_out_kept _ 3 rfl t (by omega) (Bool.eq_false_iff.mpr fun h => by have := (flush1_3 _).mp h; dsimp only at this; omega)
    live1_3 (fun _ _ => rfl)]
  dsimp only [dat1]

end Region

section Body

variable (V : (c : Dev nD) → (b : Ref sig .tc) → Buf (Elt F) ((c : Thread nD τ).loc b))

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ (dat1 V c).leavesExact 3 t)

set_option maxHeartbeats 1000000 in
/-- The body at any point: the inputs' buffers hold their blocks; the closed forms say which case the point is in; at kt > 0
    the output's buffer holds what the point before left; so the case's triple applies; the invariant and the core's dues
    pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2,
    show (dat1 V c).leavesExact 3 t = owns (c : Thread nD τ) (st1_3 t) fullShare ((dat1 V c).after 3 t) from by
      unfold Dat.leavesExact; rw [live1_3 (cfg1.grid.coords t)],
    after1_3]
  have hN : t.val < 64 := lt_of_lt_of_eq t.isLt (show cfg1.N = 64 from N_1)
  by_cases h0 : t.val % 16 = 0
  · rw [outsAt1_A V c t h0]
    iintro ⟨HΦ, Ho, ⟨%d0, H0⟩, ⟨%d1, H1⟩, ⟨%d2, H2⟩, ⟨%d3, H3⟩⟩
    iapply (sound_kernel1_A c Set.univ (grid1.coords t) _ _ _ _ _ _ _ _ ((hcond1_1 t).mpr h0) (fun h => (hcond1_2 t).mp h h0)
      (iblk1 V c 0 t) (iblk1 V c 1 t) (iblk1 V c 2 t) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [outsAt1_B V c t h0]
    simp only [before1_3_B V c t h0]
    iintro ⟨HΦ, Ho, ⟨%d0, H0⟩, ⟨%d1, H1⟩, ⟨%d2, H2⟩, ⟨%d3, H3⟩⟩
    iapply (sound_kernel1_B c Set.univ (grid1.coords t) _ _ _ _ _ _ _ _ (fun h => h0 ((hcond1_1 t).mp h)) ((hcond1_2 t).mpr h0)
      (iblk1 V c 0 t) (iblk1 V c 1 t) (iblk1 V c 2 t) _ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Body

end Cert.Kernel.Hand

end
-- ==== Proof.LibSharedLaunch.lean ====
/-
  The frame run of a one-region program whose windows may SHARE an array, stated once for any program.

  When a kernel is handed one array through several input windows, the buffers behind its windows are fewer than
  the windows, and the launch cannot give each window its array at the full share.  What it can do is hand over
  each distinct buffer whole; the certificate then says how each is dealt among the windows on it (`hsplit`): an
  array read by two windows goes half to each (`pointsTo_halves`), and reading needs no more.  Everything else is
  as for distinct arrays: the body obligation at every point, nothing owed, @main up to the region, and an
  invariant that is just the core's scoped buffers that are no staging buffer.  The conclusion is the same post as
  for distinct arrays: every window's array at what the write-backs make of it, every other unscoped buffer as the
  region found it.

  `arrays_eq_shares` restates the windows' holdings buffer by buffer, each whole at its window's share, which is the
  form in which `hsplit` is proved.
-/
import Idealize.ShloMosaic.Lib.Pipeline.Frame
import Idealize.ShloMosaic.Lib.Pipeline.Kit
import Idealize.ShloMosaic.Lib.Pipeline.Launch

noncomputable section

namespace Cert.Lib.SharedLaunch

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type}

local notation "𝕄" => MT nD τ sig Unit Val ℕ (UR sig nD τ) ℕ

/-- A buffer whole at the full share is the same buffer at the left half share and at the right half share. -/
theorem pointsTo_halves (ℓ : Loc nD τ sig) (f : Buf Val ℓ) :
    ((ℓ ↦{fullShare} f) : sProp 𝕄) ⊢ iprop((ℓ ↦{fullShare.left} f) ∗ (ℓ ↦{fullShare.right} f)) :=
  (pointsTo_share (PosShare.mem_left_op_right fullShare)).1

variable {Λ₀ : Idealize.SL.Sem.Labels} {P : Type}

/-- The windows' holdings, each array a whole buffer at its window's share. -/
theorem arrays_eq_shares {cfg : Cfg sig Λ₀} {c : Dev nD} (dat : Dat τ Val Unit ℕ (UR sig nD τ) ℕ cfg c)
    (harr : ∀ w, (cfg.spec w).arr.IsWhole)
    (G : (w : Fin cfg.W) → Buf Val ((cfg.win w).arr.view.loc (c.tc : Thread nD τ))) :
    dat.arrays G
      = bigSep Finset.univ fun w : Fin cfg.W => (((c.tc : Thread nD τ).loc (arrRef cfg.spec w)) ↦{dat.share w} G w : sProp 𝕄) := by
  unfold Dat.arrays
  exact bigSep_congr fun w _ => by rw [(harr w).set_eq_univ]

variable [Fintype P] [DecidableEq P] [∀ e, Nonempty (Val e)]

/-- THE FRAME RUN for windows that may share arrays: from the layout facts that do not ask the arrays distinct, the
    body obligation, @main up to the region and the deal of the distinct buffers among the windows, every weakly fair
    execution terminates without a fault, every window's array ends at `Dat.arrAt … N` and every other unscoped buffer as
    the region found it. -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (Ix := Unit) (Name := ℕ) (U := UR sig nD τ) (Lvl := ℕ) (cfgs p).spec c (V c) : sProp 𝕄)
      ⊢ (dats p c).arrays ((dats p c).arrAt · 0))
    (hΦ : ∀ c t, (dats p c).Φ t = scopedRest (Ix := Unit) (Name := ℕ) (U := UR sig nD τ) (Lvl := ℕ) (Val := Val) (cfgs p).spec c) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main
    (hbody := hbody) (hne := hne) (harr := harr) (hstage := hstage) (howed := howed)
    (u₀ := initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro H
      isplitr; · iempintro
      iexact H)
    (hin := fun c => by
      rw [hΦ]
      iintro ⟨-, H⟩
      iexact H)
    (hout := fun c => by
      rw [hΦ]
      iintro H
      isplitr; · iempintro
      iexact H)
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h => h)

end Cert.Lib.SharedLaunch

end
-- ==== Proof.KShared1.lean ====
/-
  Region 1 hands ONE array to two input windows (the queries and the keys are read from the same projected
  array), so its three distinct arrays are dealt among four windows: the shared array goes half to each of its two
  windows, which only read it; the value array and the output array go whole to theirs.  At the region's exit the
  two halves, both still at the entry contents, are one whole buffer again.
-/
import proofs.«136138_j13357348290569_2_alg».proof.Proof.KRegion1
import proofs.«136138_j13357348290569_2_alg».proof.Proof.LibSharedLaunch
import Idealize.ShloMosaic.Lib.Pipeline.Launch
import Idealize.ShloMosaic.Lib.Pipeline.Kit

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind region 1's windows. -/
theorem arrImage1 : (Finset.univ.image (Pipeline.arrRef spec1) : Finset (Ref sig .tc)) = ([main_v5, main_v6, main_v7] : List (Ref sig .tc)).toFinset := by
  decide

/-- ENTRY: the three buffers whole are the four windows' holdings at the entry contents, the shared one in halves. -/
theorem hsplit1 (c : Dev nD) :
    (Pipeline.arrBufs (Ix := Unit) (Name := ℕ) (U := UR sig nD τ) (Lvl := ℕ) spec1 c (V c) : sProp 𝕄)
      ⊢ (dat1 V c).arrays ((dat1 V c).arrAt · 0) := by
  rw [Cert.Lib.SharedLaunch.arrays_eq_shares (dat1 V c) arr_whole1, bigSep_W1]
  unfold Pipeline.arrBufs
  rw [bigSep_eq_bigSepL_of_eq ([main_v5, main_v6, main_v7] : List (Ref sig .tc)) arrImage1 (by decide)]
  show (iprop((((c : Thread nD τ).loc main_v5) ↦{fullShare} V c main_v5) ∗ (((c : Thread nD τ).loc main_v6) ↦{fullShare} V c main_v6)
      ∗ (((c : Thread nD τ).loc main_v7) ↦{fullShare} V c main_v7)) : sProp 𝕄)
    ⊢ iprop((((c : Thread nD τ).loc main_v5) ↦{fullShare.left} V c main_v5) ∗ (((c : Thread nD τ).loc main_v5) ↦{fullShare.right} V c main_v5)
      ∗ (((c : Thread nD τ).loc main_v6) ↦{fullShare} V c main_v6) ∗ (((c : Thread nD τ).loc main_v7) ↦{fullShare} V c main_v7))
  iintro ⟨H5, H6, H7⟩
  ihave H5' := (Cert.Lib.SharedLaunch.pointsTo_halves ((c : Thread nD τ).loc main_v5) (V c main_v5)) $$ H5
  icases H5' with ⟨Ha, Hb⟩
  isplitl [Ha]; · iexact Ha
  isplitl [Hb]; · iexact Hb
  isplitl [H6]; · iexact H6
  iexact H7

/-- EXIT: the four windows' holdings at contents `G`, the two halves of the shared buffer at one contents, are the
    three buffers whole at any valuation `V'` that reads those contents. -/
theorem hjoin1 (c : Dev nD) (V' : (b : Ref sig .tc) → Buf (Elt F) ((c : Thread nD τ).loc b))
    (G : (w : Fin cfg1.W) → Buf (Elt F) ((cfg1.win w).arr.view.loc (c : Thread nD τ)))
    (h0 : G 0 = V' main_v5) (h1 : G 1 = V' main_v5) (h2 : G 2 = V' main_v6) (h3 : G 3 = V' main_v7) :
    (dat1 V c).arrays G
      ⊢ (Pipeline.arrBufs (Ix := Unit) (Name := ℕ) (U := UR sig nD τ) (Lvl := ℕ) spec1 c V' : sProp 𝕄) := by
  rw [Cert.Lib.SharedLaunch.arrays_eq_shares (dat1 V c) arr_whole1, bigSep_W1]
  unfold Pipeline.arrBufs
  rw [bigSep_eq_bigSepL_of_eq ([main_v5, main_v6, main_v7] : List (Ref sig .tc)) arrImage1 (by decide)]
  show (iprop((((c : Thread nD τ).loc main_v5) ↦{fullShare.left} G 0) ∗ (((c : Thread nD τ).loc main_v5) ↦{fullShare.right} G 1)
      ∗ (((c : Thread nD τ).loc main_v6) ↦{fullShare} G 2) ∗ (((c : Thread nD τ).loc main_v7) ↦{fullShare} G 3)) : sProp 𝕄)
    ⊢ iprop((((c : Thread nD τ).loc main_v5) ↦{fullShare} V' main_v5) ∗ (((c : Thread nD τ).loc main_v6) ↦{fullShare} V' main_v6)
      ∗ (((c : Thread nD τ).loc main_v7) ↦{fullShare} V' main_v7))
  rw [h0, h1, h2, h3]
  iintro ⟨Ha, Hb, H6, H7⟩
  isplitl [Ha Hb]
  · iapply (pointsTo_share (PosShare.mem_left_op_right fullShare)).2
    isplitl [Ha]; · iexact Ha
    iexact Hb
  isplitl [H6]; · iexact H6
  iexact H7

end Cert.Kernel.Hand

end
-- ==== Proof.KRun.lean ====
/-
  The run of the whole program: the host reshapes and slices, the projection kernel over its 32 row blocks, two
  reshapes, the attention kernel over its (batch, key block) grid.  Between two items the TensorCore's unscoped
  buffers are held at a valuation folded from the launch memory: a host stretch applies its operations, a region puts
  in its output arrays what its write-backs leave.  Every weakly fair execution terminates, and the final memory is the
  last valuation: the arguments as launched, the result array at what the attention kernel's write-backs leave.
-/
import proofs.«136138_j13357348290569_2_alg».proof.Proof.KRegion0
import proofs.«136138_j13357348290569_2_alg».proof.Proof.KShared1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: the result array at what the pipeline leaves, every other buffer as entered (the region's
    other arrays are inputs). -/
def W4 (c : Dev nD) : Valuation τ sig (Elt F) :=
  Function.update (W3 m ρ c) (Proc.devRef .tc main_v7) ((dat1 (V3 m ρ) c).arrAt 3 cfg1.N)
abbrev V4 : (c : Dev nD) → (b : Ref sig .tc) → Buf (Elt F) ((c : Thread nD τ).loc b) := fun c b => W4 m ρ c b
theorem W4_res (c : Dev nD) : W4 m ρ c (Proc.devRef .tc main_v7) = (dat1 (V3 m ρ) c).arrAt 3 cfg1.N := by
  unfold W4; exact Function.update_self ..
theorem W4_of_ne (c : Dev nD) (b : Ref sig .tc) (hb : b ≠ main_v7) :
    W4 m ρ c (Proc.devRef .tc b) = W3 m ρ c (Proc.devRef .tc b) := by
  unfold W4; exact Function.update_of_ne (StableHlo.devRef_ne_of_ne hb) ..

/-! ### The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg1) := rfl

/-- No host operation allocates a buffer. -/
theorem hops0_fresh : (hostOps0 : List (HloOp τ sig (Elt F))).Forall fun op => op.fresh = ∅ := by
  simp only [List.Forall]; repeat' constructor
theorem hops1_fresh : (hostOps1 : List (HloOp τ sig (Elt F))).Forall fun op => op.fresh = ∅ := by
  simp only [List.Forall]; repeat' constructor

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- REGION 0 over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The valuation at region 1's exit agrees with the entry's off the result array. -/
theorem hrest1 (c : Dev nD) : ∀ b, b ∉ Finset.univ.image (Pipeline.arrRef spec1) → V4 m ρ c b = V3 m ρ c b :=
  fun b hb => W4_of_ne m ρ c b fun e => hb (Finset.mem_image.mpr ⟨3, Finset.mem_univ _, e.symm⟩)

set_option backward.isDefEq.respectTransparency.types false in
/-- REGION 1 over the thread state: entered from every unscoped buffer at `W3`, left at `W4`; the array its first two
    windows share is dealt to them in halves at the entry and made whole again at the exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hub := Pipeline.unscopedBufs_split₀ (Ix := Unit) (Name := ℕ) (U := UR sig nD τ) (Lvl := ℕ) (Pipeline.pin (pcfgs (F := F)) adm) 1 winFacts₀1.arr_unscoped c (V3 m ρ c)
    rw [Pipeline.unscopedBufs_held] at hub
    have hsplit : (StableHlo.held (c : Thread nD τ) (Pipeline.ucRefs τ sig) (W3 m ρ c) : sProp 𝕄)
        ⊢ iprop((pdats m ρ 1 c).arrays ((pdats m ρ 1 c).arrAt · 0) ∗ Pipeline.unscopedRest spec1 c (V3 m ρ c)) :=
      (Entails.of_eq hub).trans (BIClass.sep_mono (hsplit1 (V3 m ρ) c) .rfl)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hub := Pipeline.unscopedBufs_split₀ (Ix := Unit) (Name := ℕ) (U := UR sig nD τ) (Lvl := ℕ) (Pipeline.pin (pcfgs (F := F)) adm) 1 winFacts₀1.arr_unscoped c (V4 m ρ c)
    rw [Pipeline.unscopedBufs_held] at hub
    have hjoin := hjoin1 (V3 m ρ) c (V4 m ρ c) ((pdats m ρ 1 c).arrAt · cfg1.N)
      ((((dat1 (V3 m ρ) c).arrAt_in 0 rfl _).trans (A_eq1 (V3 m ρ) c 0)).trans (W4_of_ne m ρ c main_v5 (by decide)).symm)
      ((((dat1 (V3 m ρ) c).arrAt_in 1 rfl _).trans (A_eq1 (V3 m ρ) c 1)).trans (W4_of_ne m ρ c main_v5 (by decide)).symm)
      ((((dat1 (V3 m ρ) c).arrAt_in 2 rfl _).trans (A_eq1 (V3 m ρ) c 2)).trans (W4_of_ne m ρ c main_v6 (by decide)).symm)
      (W4_res m ρ c).symm
    have hrest : (Pipeline.unscopedRest (Ix := Unit) (Name := ℕ) (U := UR sig nD τ) (Lvl := ℕ) spec1 c (V3 m ρ c) : sProp 𝕄)
        = Pipeline.unscopedRest spec1 c (V4 m ρ c) := by
      unfold Pipeline.unscopedRest
      exact bigSep_congr fun b hb => by rw [hrest1 m ρ c b (Finset.mem_sdiff.mp hb).2]
    have hback : (iprop((pdats m ρ 1 c).arrays ((pdats m ρ 1 c).arrAt · cfg1.N) ∗ Pipeline.unscopedRest spec1 c (V3 m ρ c)) : sProp 𝕄)
        ⊢ StableHlo.held (c : Thread nD τ) (Pipeline.ucRefs τ sig) (W4 m ρ c) :=
      (BIClass.sep_mono hjoin (Entails.of_eq hrest)).trans (Entails.of_eq hub.symm)
    iintro ⟨Ha, HO, HY, Hrest⟩
    imodintro
    isplitl [Ha Hrest HY]
    · isplitl [Ha Hrest]
      · iapply hback; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hops0_fresh (W0 m ρ)),
    .region (reg0 m ρ),
    .host (hseg hostOps1 hostOps1_sub hops1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every unscoped buffer of every core ends at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W4_main_arg0 m ρ c),
     (h c _ (mem_uc main_arg1 (by decide))).trans (W4_main_arg1 m ρ c)⟩) (run_all m ρ)

/-- THE RUN WITH ITS RESULT: the arguments end as launched and the result array at what the attention kernel's
    write-backs leave. -/
theorem run_result : θ_run defs (onTc (τ := τ) (main (F := F))) ⟨m, fun _ => 0, ρ⟩ (fun r => ∀ c : Dev nD,
      r.2.mem ((c.tc : Thread nD τ).loc main_v7) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v7 (by decide))).trans (W4_res m ρ c),
     (h c _ (mem_uc main_arg0 (by decide))).trans (W4_main_arg0 m ρ c),
     (h c _ (mem_uc main_arg1 (by decide))).trans (W4_main_arg1 m ρ c)⟩) (run_all m ρ)

end Cert.Kernel.Hand

end
-- ==== Proof.Region0.lean ====
/- The frame half of REGION 0 (custom_call 0, the kernel cc0__qkv_kernel), at a parameter V — the
   TensorCore's buffer contents when the region is entered —, generic in the float instance: each window's block at a
   point, what the body leaves in each output window's buffer as the canon of its one store, the body's triple, the
   proof data of the pipeline and its body obligation. -/
import proofs.«136138_j13357348290569_2_alg».proof.Proof.Gen.KernelIdeal.Launch
import proofs.«136138_j13357348290569_2_alg».proof.Proof.Gen.KernelIdeal.Skeleton
import proofs.«136138_j13357348290569_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it (V). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is V's
    and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 (fetched at the first point only: its block index never moves) likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2 (fetched at the first point only) likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each the whole of its buffer -/

abbrev r0_0 : Rect S256x1024 := Rect.unit (s := S256x1024) ![0, 0] S256x1024.size Gen.inb_S256x1024_S256x1024_0_0
abbrev r0_1 : Rect S1024x2048 := Rect.unit (s := S1024x2048) ![0, 0] S1024x2048.size Gen.inb_S1024x2048_S1024x2048_0_0
abbrev r0_2 : Rect S1024x1024 := Rect.unit (s := S1024x1024) ![0, 0] S1024x1024.size Gen.inb_S1024x1024_S1024x1024_0_0
abbrev r0_3 : Rect S256x2048 := Rect.unit (s := S256x2048) ![0, 0] S256x2048.size Gen.inb_S256x2048_S256x2048_0_0

/-! ## What the body leaves in each output window's buffer -/

/-- Window 3's staging buffer after the body, from the input windows' blocks: its one store as a piece. -/
def out0_3 (x0 : Vec F S256x1024 .f32) (x1 : Vec F S1024x2048 .f32) : Vec F S256x2048 .f32 :=
  View.canon [⟨r0_3, k0_pay2 (View.ld x0 r0_0) (View.ld x1 r0_1)⟩]

/-- Window 4's staging buffer after the body: its one store as a piece. -/
def out0_4 (x0 : Vec F S256x1024 .f32) (x2 : Vec F S1024x1024 .bf16) : Vec F S256x1024 .bf16 :=
  View.canon [⟨r0_0, k0_pay3 (View.ld x0 r0_0) (View.ld x2 r0_2)⟩]

/-- The one store of window 3 is the whole buffer, so it covers it. -/
theorem cover0_3 (p0 : Vec F S256x2048 .f32) (y : S256x2048.Idx) :
    ∃ pc ∈ ([⟨r0_3, p0⟩] : List (View.Piece (Elt F) S256x2048 .f32)), y ∈ pc.1.set :=
  View.cover_of_tiled [⟨r0_3, p0⟩] S256x2048.size (by rfl) y

/-- The one store of window 4 is the whole buffer, so it covers it. -/
theorem cover0_4 (p0 : Vec F S256x1024 .bf16) (y : S256x1024.Idx) :
    ∃ pc ∈ ([⟨r0_0, p0⟩] : List (View.Piece (Elt F) S256x1024 .bf16)), y ∈ pc.1.set :=
  View.cover_of_tiled [⟨r0_0, p0⟩] S256x1024.size (by rfl) y

/-! ## The body's triple -/

set_option maxHeartbeats 4000000 in
/-- The kernel body on whole staging memrefs, the inputs' at read contents and the outputs' at anything, runs to the
    continuation holding the inputs' as they were and each output's at the canon of its store over the inputs'. Each
    output buffer is also loaded before it is stored: the value loaded is read by nothing. -/
theorem sound_kernel0 (c : Dev nD) (E : Set ℕ) (i : grid0.Coords)
    (arg1 : Memref sig .tc .vmem S256x1024 .f32) (harg1 : arg1.IsWhole) (arg2 : Memref sig .tc .vmem S1024x2048 .f32) (harg2 : arg2.IsWhole)
    (arg3 : Memref sig .tc .vmem S1024x1024 .bf16) (harg3 : arg3.IsWhole) (arg4 : Memref sig .tc .vmem S256x2048 .f32) (harg4 : arg4.IsWhole)
    (arg5 : Memref sig .tc .vmem S256x1024 .bf16) (harg5 : arg5.IsWhole)
    (x0 : Vec F S256x1024 .f32) (x1 : Vec F S1024x2048 .f32) (x2 : Vec F S1024x1024 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1) ∗ owns (c : Thread nD τ) arg5 fullShare (out0_4 x0 x2)) -∗ K ⟨⟩))
      ⊢ wp frame (wpE (defs₀ (F := F)) Variants.none c none) E (cc0__qkv_kernel i arg1 harg1 arg2 harg2 arg3 harg3 arg4 harg4 arg5 harg5) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The pipeline's proof data -/

/-- The proof data of pipeline 0 on core c: the arrays as the region finds them (V); after the body at point t each
    input's buffer at its block and each output's at the canon of its store over the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the kernel's triple applies; the invariant and
    the core's owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Region1.lean ====
/-
  Region 1 of the program: the attention kernel over the grid (batch, key block), at the contents V the
  TensorCore's buffers hold when the region is entered, for any float instance.

  A grid point (b, kt) reads the whole query block of batch b, the kt-th block of 128 keys and the kt-th block of
  128 values, and leaves in the output block of batch b: at kt = 0 the block's contribution itself; at kt > 0 what
  the point before left there plus the block's contribution.  The output block is written back after kt = 15.
  The query block and the key block are two windows on ONE array.
-/
import proofs.«136138_j13357348290569_2_alg».proof.Proof.Gen.KernelIdeal.Launch
import proofs.«136138_j13357348290569_2_alg».proof.Proof.Gen.KernelIdeal.Skeleton
import proofs.«136138_j13357348290569_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which case a grid point is in -/

/-- The first condition (kt = 0) holds at the points ≡ 0 (mod 16). -/
theorem hcond1_1 : ∀ t : Fin cfg1.N, k1_cond1 (grid1.coords t) = 1#1 ↔ t.val % 16 = 0 :=
  (by decide +kernel : ∀ t : Fin grid1.N, k1_cond1 (grid1.coords t) = 1#1 ↔ t.val % 16 = 0)

/-- The second condition (kt ≠ 0) holds at the other points. -/
theorem hcond1_2 : ∀ t : Fin cfg1.N, k1_cond2 (grid1.coords t) = 1#1 ↔ ¬ t.val % 16 = 0 :=
  (by decide +kernel : ∀ t : Fin grid1.N, k1_cond2 (grid1.coords t) = 1#1 ↔ ¬ t.val % 16 = 0)

/-- No grid point leaves the output block untouched: one of the two conditions holds everywhere. -/
theorem live1_3 : ∀ i : grid1.Coords, cfg1.idle 3 i = false := by decide +kernel

/-! ## The body's accesses -/

abbrev rq : Rect S1x2048x1024 := Rect.unit (s := S1x2048x1024) ![0, 0, 0] S1x2048x1024.size inb_S1x2048x1024_S1x2048x1024_0_0_0
abbrev rk : Rect S1x128x1024 := Rect.unit (s := S1x128x1024) ![0, 0, 0] S1x128x1024.size inb_S1x128x1024_S1x128x1024_0_0_0

/-- What a point with kt = 0 leaves in the output block: the one store of the block's contribution. -/
def outA (x0 : Vec F S1x2048x1024 .f32) (x1 : Vec F S1x128x1024 .f32) (x2 : Vec F S1x128x1024 .bf16) : Vec F S1x2048x1024 .f32 :=
  View.canon [⟨rq, k1_pay2 (View.ld x0 rq) (View.ld x1 rk) (View.ld x2 rk)⟩]

/-- What a point with kt > 0 leaves there: the one store of what it found plus the block's contribution. -/
def outB (x0 : Vec F S1x2048x1024 .f32) (x1 : Vec F S1x128x1024 .f32) (x2 : Vec F S1x128x1024 .bf16) (xo : Vec F S1x2048x1024 .f32) : Vec F S1x2048x1024 .f32 :=
  View.canon [⟨rq, k1_pay3 (View.ld x0 rq) (View.ld x1 rk) (View.ld x2 rk) (View.ld xo rq)⟩]

/-- The one store covers the block. -/
theorem cover_q (p0 : Vec F S1x2048x1024 .f32) (y : S1x2048x1024.Idx) :
    ∃ pc ∈ ([⟨rq, p0⟩] : List (View.Piece (Elt F) S1x2048x1024 .f32)), y ∈ pc.1.set :=
  View.cover_of_tiled [⟨rq, p0⟩] S1x2048x1024.size (by rfl) y

/-! ## The body's triple, case by case -/

set_option maxHeartbeats 1000000 in
/-- At kt = 0: the inputs' buffers at their contents and the output's at anything, the body runs and leaves the inputs'
    as they were and the output's at `outA` of them. -/
theorem sound_kernel1_A (c : Dev nD) (E : Set ℕ) (i : grid1.Coords) (arg2 : Memref sig .tc .vmem S1x2048x1024 .f32) (harg2 : arg2.IsWhole)
    (arg3 : Memref sig .tc .vmem S1x128x1024 .f32) (harg3 : arg3.IsWhole) (arg4 : Memref sig .tc .vmem S1x128x1024 .bf16) (harg4 : arg4.IsWhole)
    (arg5 : Memref sig .tc .vmem S1x2048x1024 .f32) (harg5 : arg5.IsWhole) (hc1 : k1_cond1 i = 1#1) (hc2 : ¬ k1_cond2 i = 1#1)
    (x0 : Vec F S1x2048x1024 .f32) (x1 : Vec F S1x128x1024 .f32) (x2 : Vec F S1x128x1024 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outA x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_q _)

set_option maxHeartbeats 1000000 in
/-- At kt > 0: the inputs' buffers at their contents and the output's at what the point before left (`xo`), the body runs
    and leaves the inputs' as they were and the output's at `outB` of them. -/
theorem sound_kernel1_B (c : Dev nD) (E : Set ℕ) (i : grid1.Coords) (arg2 : Memref sig .tc .vmem S1x2048x1024 .f32) (harg2 : arg2.IsWhole)
    (arg3 : Memref sig .tc .vmem S1x128x1024 .f32) (harg3 : arg3.IsWhole) (arg4 : Memref sig .tc .vmem S1x128x1024 .bf16) (harg4 : arg4.IsWhole)
    (arg5 : Memref sig .tc .vmem S1x2048x1024 .f32) (harg5 : arg5.IsWhole) (hc1 : ¬ k1_cond1 i = 1#1) (hc2 : k1_cond2 i = 1#1)
    (x0 : Vec F S1x2048x1024 .f32) (x1 : Vec F S1x128x1024 .f32) (x2 : Vec F S1x128x1024 .bf16) (xo : Vec F S1x2048x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo
        ∗ (iprop(owns (c : Thread nD τ) arg2 fullShare x0 ∗ owns (c : Thread nD τ) arg3 fullShare x1 ∗ owns (c : Thread nD τ) arg4 fullShare x2
            ∗ owns (c : Thread nD τ) arg5 fullShare (outB x0 x1 x2 xo)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_q _)

section Region

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, the block
    index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the output block holds after each point -/

/-- THE ACCUMULATION: what the output's staging buffer holds after the body at position `n` of the grid. -/
def outsAt1 (c : Dev nD) : (n : ℕ) → n < cfg1.N → Vec F S1x2048x1024 .f32
  | 0, hn => outA (iblk1 V c 0 ⟨0, hn⟩) (iblk1 V c 1 ⟨0, hn⟩) (iblk1 V c 2 ⟨0, hn⟩)
  | n + 1, hn =>
    if (n + 1) % 16 = 0 then
      outA (iblk1 V c 0 ⟨n + 1, hn⟩) (iblk1 V c 1 ⟨n + 1, hn⟩) (iblk1 V c 2 ⟨n + 1, hn⟩)
    else
      outB (iblk1 V c 0 ⟨n + 1, hn⟩) (iblk1 V c 1 ⟨n + 1, hn⟩) (iblk1 V c 2 ⟨n + 1, hn⟩) (outsAt1 c n (Nat.lt_of_succ_lt hn))

/-- At a point with kt = 0. -/
theorem outsAt1_A (c : Dev nD) (t : Fin cfg1.N) (h0 : t.val % 16 = 0) :
    outsAt1 V c t.val t.isLt = outA (iblk1 V c 0 t) (iblk1 V c 1 t) (iblk1 V c 2 t) := by
  obtain ⟨n, hn⟩ := t
  cases n with
  | zero => exact rfl
  | succ n => exact (if_pos h0).trans rfl

/-- At a point with kt > 0: over what the point before left. -/
theorem outsAt1_B (c : Dev nD) (t : Fin cfg1.N) (h0 : ¬ t.val % 16 = 0) :
    outsAt1 V c t.val t.isLt = outB (iblk1 V c 0 t) (iblk1 V c 1 t) (iblk1 V c 2 t)
      (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-! ## The pipeline's proof data -/

/-- The proof data of pipeline 1 on core `c`: the arrays as the region finds them; after the body each input's buffer at
    its block and the output's at `outsAt1`; the two windows on the one array hold it at the two halves of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outsAt1 V c t.val t.isLt
  Φ _ := Pipeline.ΦA spec1 c
  q w := match w with
    | ⟨0, _⟩ => fullShare.left
    | ⟨1, _⟩ => fullShare.right
    | ⟨2, _⟩ => fullShare
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outsAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- At a point with kt > 0 the output's staging buffer holds what the body left at the point before: the point is not the
    first, and the block was not written back in between (that happens after kt = 15 only). -/
theorem before1_3_B (c : Dev nD) (t : Fin cfg1.N) (h0 : ¬ t.val % 16 = 0) (d) :
    (dat1 V c).before 3 t d = outsAt1 V c (t.val - 1) (Nat.lt_of_le_of_lt (Nat.sub_le _ _) t.isLt) := by
  have hN : t.val < 64 := lt_of_lt_of_eq t.isLt (show cfg1.N = 64 from N_1)
  rw [Dat.before_out_kept _ 3 rfl t (by omega) (Bool.eq_false_iff.mpr fun h => by have := (flush1_3 _).mp h; dsimp only at this; omega)
    live1_3 (fun _ _ => rfl)]
  dsimp only [dat1]

end Region

section Body

variable (V : (c : Dev nD) → (b : Ref sig .tc) → Buf (Elt F) ((c : Thread nD τ).loc b))

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ (dat1 V c).leavesExact 3 t)

set_option maxHeartbeats 1000000 in
/-- The body at any point: the inputs' buffers hold their blocks; the closed forms say which case the point is in; at kt > 0
    the output's buffer holds what the point before left; so the case's triple applies; the invariant and the core's dues
    pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2,
    show (dat1 V c).leavesExact 3 t = owns (c : Thread nD τ) (st1_3 t) fullShare ((dat1 V c).after 3 t) from by
      unfold Dat.leavesExact; rw [live1_3 (cfg1.grid.coords t)],
    after1_3]
  have hN : t.val < 64 := lt_of_lt_of_eq t.isLt (show cfg1.N = 64 from N_1)
  by_cases h0 : t.val % 16 = 0
  · rw [outsAt1_A V c t h0]
    iintro ⟨HΦ, Ho, ⟨%d0, H0⟩, ⟨%d1, H1⟩, ⟨%d2, H2⟩, ⟨%d3, H3⟩⟩
    iapply (sound_kernel1_A c Set.univ (grid1.coords t) _ _ _ _ _ _ _ _ ((hcond1_1 t).mpr h0) (fun h => (hcond1_2 t).mp h h0)
      (iblk1 V c 0 t) (iblk1 V c 1 t) (iblk1 V c 2 t) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [outsAt1_B V c t h0]
    simp only [before1_3_B V c t h0]
    iintro ⟨HΦ, Ho, ⟨%d0, H0⟩, ⟨%d1, H1⟩, ⟨%d2, H2⟩, ⟨%d3, H3⟩⟩
    iapply (sound_kernel1_B c Set.univ (grid1.coords t) _ _ _ _ _ _ _ _ (fun h => h0 ((hcond1_1 t).mp h)) ((hcond1_2 t).mpr h0)
      (iblk1 V c 0 t) (iblk1 V c 1 t) (iblk1 V c 2 t) _ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Body

end Cert.KernelIdeal.Hand

end
-- ==== Proof.Shared1.lean ====
/-
  Region 1 hands ONE array to two input windows (the queries and the keys are read from the same projected
  array), so its three distinct arrays are dealt among four windows: the shared array goes half to each of its two
  windows, which only read it; the value array and the output array go whole to theirs.  At the region's exit the
  two halves, both still at the entry contents, are one whole buffer again.
-/
import proofs.«136138_j13357348290569_2_alg».proof.Proof.Region1
import proofs.«136138_j13357348290569_2_alg».proof.Proof.LibSharedLaunch
import Idealize.ShloMosaic.Lib.Pipeline.Launch
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind region 1's windows. -/
theorem arrImage1 : (Finset.univ.image (Pipeline.arrRef spec1) : Finset (Ref sig .tc)) = ([main_v5, main_v6, main_v7] : List (Ref sig .tc)).toFinset := by
  decide

/-- ENTRY: the three buffers whole are the four windows' holdings at the entry contents, the shared one in halves. -/
theorem hsplit1 (c : Dev nD) :
    (Pipeline.arrBufs (Ix := Unit) (Name := ℕ) (U := UR sig nD τ) (Lvl := ℕ) spec1 c (V c) : sProp 𝕄)
      ⊢ (dat1 V c).arrays ((dat1 V c).arrAt · 0) := by
  rw [Cert.Lib.SharedLaunch.arrays_eq_shares (dat1 V c) arr_whole1, bigSep_W1]
  unfold Pipeline.arrBufs
  rw [bigSep_eq_bigSepL_of_eq ([main_v5, main_v6, main_v7] : List (Ref sig .tc)) arrImage1 (by decide)]
  show (iprop((((c : Thread nD τ).loc main_v5) ↦{fullShare} V c main_v5) ∗ (((c : Thread nD τ).loc main_v6) ↦{fullShare} V c main_v6)
      ∗ (((c : Thread nD τ).loc main_v7) ↦{fullShare} V c main_v7)) : sProp 𝕄)
    ⊢ iprop((((c : Thread nD τ).loc main_v5) ↦{fullShare.left} V c main_v5) ∗ (((c : Thread nD τ).loc main_v5) ↦{fullShare.right} V c main_v5)
      ∗ (((c : Thread nD τ).loc main_v6) ↦{fullShare} V c main_v6) ∗ (((c : Thread nD τ).loc main_v7) ↦{fullShare} V c main_v7))
  iintro ⟨H5, H6, H7⟩
  ihave H5' := (Cert.Lib.SharedLaunch.pointsTo_halves ((c : Thread nD τ).loc main_v5) (V c main_v5)) $$ H5
  icases H5' with ⟨Ha, Hb⟩
  isplitl [Ha]; · iexact Ha
  isplitl [Hb]; · iexact Hb
  isplitl [H6]; · iexact H6
  iexact H7

/-- EXIT: the four windows' holdings at contents `G`, the two halves of the shared buffer at one contents, are the
    three buffers whole at any valuation `V'` that reads those contents. -/
theorem hjoin1 (c : Dev nD) (V' : (b : Ref sig .tc) → Buf (Elt F) ((c : Thread nD τ).loc b))
    (G : (w : Fin cfg1.W) → Buf (Elt F) ((cfg1.win w).arr.view.loc (c : Thread nD τ)))
    (h0 : G 0 = V' main_v5) (h1 : G 1 = V' main_v5) (h2 : G 2 = V' main_v6) (h3 : G 3 = V' main_v7) :
    (dat1 V c).arrays G
      ⊢ (Pipeline.arrBufs (Ix := Unit) (Name := ℕ) (U := UR sig nD τ) (Lvl := ℕ) spec1 c V' : sProp 𝕄) := by
  rw [Cert.Lib.SharedLaunch.arrays_eq_shares (dat1 V c) arr_whole1, bigSep_W1]
  unfold Pipeline.arrBufs
  rw [bigSep_eq_bigSepL_of_eq ([main_v5, main_v6, main_v7] : List (Ref sig .tc)) arrImage1 (by decide)]
  show (iprop((((c : Thread nD τ).loc main_v5) ↦{fullShare.left} G 0) ∗ (((c : Thread nD τ).loc main_v5) ↦{fullShare.right} G 1)
      ∗ (((c : Thread nD τ).loc main_v6) ↦{fullShare} G 2) ∗ (((c : Thread nD τ).loc main_v7) ↦{fullShare} G 3)) : sProp 𝕄)
    ⊢ iprop((((c : Thread nD τ).loc main_v5) ↦{fullShare} V' main_v5) ∗ (((c : Thread nD τ).loc main_v6) ↦{fullShare} V' main_v6)
      ∗ (((c : Thread nD τ).loc main_v7) ↦{fullShare} V' main_v7))
  rw [h0, h1, h2, h3]
  iintro ⟨Ha, Hb, H6, H7⟩
  isplitl [Ha Hb]
  · iapply (pointsTo_share (PosShare.mem_left_op_right fullShare)).2
    isplitl [Ha]; · iexact Ha
    iexact Hb
  isplitl [H6]; · iexact H6
  iexact H7

end Cert.KernelIdeal.Hand

end
-- ==== Proof.Run.lean ====
/-
  The run of the whole program: the host reshapes and slices, the projection kernel over its 32 row blocks, two
  reshapes, the attention kernel over its (batch, key block) grid.  Between two items the TensorCore's unscoped
  buffers are held at a valuation folded from the launch memory: a host stretch applies its operations, a region puts
  in its output arrays what its write-backs leave.  Every weakly fair execution terminates, and the final memory is the
  last valuation: the arguments as launched, the result array at what the attention kernel's write-backs leave.
-/
import proofs.«136138_j13357348290569_2_alg».proof.Proof.Region0
import proofs.«136138_j13357348290569_2_alg».proof.Proof.Shared1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: the result array at what the pipeline leaves, every other buffer as entered (the region's
    other arrays are inputs). -/
def W4 (c : Dev nD) : Valuation τ sig (Elt F) :=
  Function.update (W3 m ρ c) (Proc.devRef .tc main_v7) ((dat1 (V3 m ρ) c).arrAt 3 cfg1.N)
abbrev V4 : (c : Dev nD) → (b : Ref sig .tc) → Buf (Elt F) ((c : Thread nD τ).loc b) := fun c b => W4 m ρ c b
theorem W4_res (c : Dev nD) : W4 m ρ c (Proc.devRef .tc main_v7) = (dat1 (V3 m ρ) c).arrAt 3 cfg1.N := by
  unfold W4; exact Function.update_self ..
theorem W4_of_ne (c : Dev nD) (b : Ref sig .tc) (hb : b ≠ main_v7) :
    W4 m ρ c (Proc.devRef .tc b) = W3 m ρ c (Proc.devRef .tc b) := by
  unfold W4; exact Function.update_of_ne (StableHlo.devRef_ne_of_ne hb) ..

/-! ### The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.reshape_writes, Finset.mem_singleton]
          repeat' apply And.intro
          all_goals exact StableHlo.devRef_ne_of_ne (by decide)))
    _ = m ((c : Thread nD τ).loc main_arg1) := rfl

/-- No host operation allocates a buffer. -/
theorem hops0_fresh : (hostOps0 : List (HloOp τ sig (Elt F))).Forall fun op => op.fresh = ∅ := by
  simp only [List.Forall]; repeat' constructor
theorem hops1_fresh : (hostOps1 : List (HloOp τ sig (Elt F))).Forall fun op => op.fresh = ∅ := by
  simp only [List.Forall]; repeat' constructor

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- REGION 0 over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The valuation at region 1's exit agrees with the entry's off the result array. -/
theorem hrest1 (c : Dev nD) : ∀ b, b ∉ Finset.univ.image (Pipeline.arrRef spec1) → V4 m ρ c b = V3 m ρ c b :=
  fun b hb => W4_of_ne m ρ c b fun e => hb (Finset.mem_image.mpr ⟨3, Finset.mem_univ _, e.symm⟩)

set_option backward.isDefEq.respectTransparency.types false in
/-- REGION 1 over the thread state: entered from every unscoped buffer at `W3`, left at `W4`; the array its first two
    windows share is dealt to them in halves at the entry and made whole again at the exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hub := Pipeline.unscopedBufs_split₀ (Ix := Unit) (Name := ℕ) (U := UR sig nD τ) (Lvl := ℕ) (Pipeline.pin (pcfgs (F := F)) adm) 1 winFacts₀1.arr_unscoped c (V3 m ρ c)
    rw [Pipeline.unscopedBufs_held] at hub
    have hsplit : (StableHlo.held (c : Thread nD τ) (Pipeline.ucRefs τ sig) (W3 m ρ c) : sProp 𝕄)
        ⊢ iprop((pdats m ρ 1 c).arrays ((pdats m ρ 1 c).arrAt · 0) ∗ Pipeline.unscopedRest spec1 c (V3 m ρ c)) :=
      (Entails.of_eq hub).trans (BIClass.sep_mono (hsplit1 (V3 m ρ) c) .rfl)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hub := Pipeline.unscopedBufs_split₀ (Ix := Unit) (Name := ℕ) (U := UR sig nD τ) (Lvl := ℕ) (Pipeline.pin (pcfgs (F := F)) adm) 1 winFacts₀1.arr_unscoped c (V4 m ρ c)
    rw [Pipeline.unscopedBufs_held] at hub
    have hjoin := hjoin1 (V3 m ρ) c (V4 m ρ c) ((pdats m ρ 1 c).arrAt · cfg1.N)
      ((((dat1 (V3 m ρ) c).arrAt_in 0 rfl _).trans (A_eq1 (V3 m ρ) c 0)).trans (W4_of_ne m ρ c main_v5 (by decide)).symm)
      ((((dat1 (V3 m ρ) c).arrAt_in 1 rfl _).trans (A_eq1 (V3 m ρ) c 1)).trans (W4_of_ne m ρ c main_v5 (by decide)).symm)
      ((((dat1 (V3 m ρ) c).arrAt_in 2 rfl _).trans (A_eq1 (V3 m ρ) c 2)).trans (W4_of_ne m ρ c main_v6 (by decide)).symm)
      (W4_res m ρ c).symm
    have hrest : (Pipeline.unscopedRest (Ix := Unit) (Name := ℕ) (U := UR sig nD τ) (Lvl := ℕ) spec1 c (V3 m ρ c) : sProp 𝕄)
        = Pipeline.unscopedRest spec1 c (V4 m ρ c) := by
      unfold Pipeline.unscopedRest
      exact bigSep_congr fun b hb => by rw [hrest1 m ρ c b (Finset.mem_sdiff.mp hb).2]
    have hback : (iprop((pdats m ρ 1 c).arrays ((pdats m ρ 1 c).arrAt · cfg1.N) ∗ Pipeline.unscopedRest spec1 c (V3 m ρ c)) : sProp 𝕄)
        ⊢ StableHlo.held (c : Thread nD τ) (Pipeline.ucRefs τ sig) (W4 m ρ c) :=
      (BIClass.sep_mono hjoin (Entails.of_eq hrest)).trans (Entails.of_eq hub.symm)
    iintro ⟨Ha, HO, HY, Hrest⟩
    imodintro
    isplitl [Ha Hrest HY]
    · isplitl [Ha Hrest]
      · iapply hback; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hops0_fresh (W0 m ρ)),
    .region (reg0 m ρ),
    .host (hseg hostOps1 hostOps1_sub hops1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every unscoped buffer of every core ends at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W4_main_arg0 m ρ c),
     (h c _ (mem_uc main_arg1 (by decide))).trans (W4_main_arg1 m ρ c)⟩) (run_all m ρ)

/-- THE RUN WITH ITS RESULT: the arguments end as launched and the result array at what the attention kernel's
    write-backs leave. -/
theorem run_result : θ_run defs (onTc (τ := τ) (main (F := F))) ⟨m, fun _ => 0, ρ⟩ (fun r => ∀ c : Dev nD,
      r.2.mem ((c.tc : Thread nD τ).loc main_v7) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v7 (by decide))).trans (W4_res m ρ c),
     (h c _ (mem_uc main_arg0 (by decide))).trans (W4_main_arg0 m ρ c),
     (h c _ (mem_uc main_arg1 (by decide))).trans (W4_main_arg1 m ρ c)⟩) (run_all m ρ)

end Cert.KernelIdeal.Hand

end
-- ==== Proof.Host.lean ====
/-
  What the host operations around the two kernels put in the buffers the kernels read, at the ideal instance, read at
  coordinates: the activations [4,2048,1024] viewed as 8192 rows; the weights' first 2048 columns and last 1024
  columns; the projection kernel's two results viewed back as [4,2048,·].
-/
import proofs.«136138_j13357348290569_2_alg».proof.Proof.Run
import Idealize.ShloMosaic.Lib.Pipeline.Value
import Idealize.ShloMosaic.Lib.ValueIdx
import Idealize.ShloMosaic.Lib.StableHlo.Run

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- Row r = b·2048 + s of the flattened activations is row (b, s). -/
theorem V1_v0_at (c : Dev nD) (b : Fin 4) (s : Fin 2048) (d : Fin 1024) (r : Fin 8192) (hr : r.val = b.val * 2048 + s.val) :
    (V1 m ρ c main_v0 : S8192x1024.Idx → EReal) (ix2 r d) = (m ((c : Thread nD τ).loc main_arg0) : S4x2048x1024.Idx → EReal) (ix3 b s d) := by
  have e : (V1 m ρ c main_v0 : S8192x1024.Idx → EReal)
      = shapeCast S8192x1024 (m ((c : Thread nD τ).loc main_arg0) : S4x2048x1024.Idx → EReal) shapeCasts_S4x2048x1024_S8192x1024 := by
    show StableHlo.after hostOps0 (W0 m ρ c) (Proc.devRef .tc main_v0) = _
    after_results <;> rfl
  rw [e]
  refine shapeCast_apply (s := S4x2048x1024) (t := S8192x1024) _ _ (ix2 r d) (ix3 b s d) ?_
  rw [Shape.rowMajor_val_three, Shape.rowMajor_val_two]
  show (b.val * 2048 + s.val) * 1024 + d.val = r.val * 1024 + d.val
  rw [hr]

/-- The query/key weights are the first 2048 columns. -/
theorem V1_v1_at (c : Dev nD) (d : Fin 1024) (e : Fin 2048) :
    (V1 m ρ c main_v1 : S1024x2048.Idx → EReal) (ix2 d e) = (m ((c : Thread nD τ).loc main_arg1) : S1024x3072.Idx → EReal) (ix2 d (⟨e.val, by omega⟩ : Fin 3072)) := by
  have h : (V1 m ρ c main_v1 : S1024x2048.Idx → EReal)
      = extractStridedSlice S1024x2048 ![0, 0] (m ((c : Thread nD τ).loc main_arg1) : S1024x3072.Idx → EReal) slices_S1024x3072_S1024x2048_0_0 := by
    show StableHlo.after hostOps0 (W0 m ρ c) (Proc.devRef .tc main_v1) = _
    after_results <;> rfl
  rw [h]
  refine extractStridedSlice_apply (s := S1024x3072) (t := S1024x2048) _ _ _ (ix2 d e) (ix2 d (⟨e.val, by omega⟩ : Fin 3072)) (fun a => ?_)
  match a with
  | ⟨0, _⟩ => exact (Nat.zero_add _).symm
  | ⟨1, _⟩ => exact (Nat.zero_add _).symm

/-- The value weights are the last 1024 columns (their rounding to bf16 is the identity here). -/
theorem V1_v3_at (c : Dev nD) (d : Fin 1024) (e : Fin 1024) :
    (V1 m ρ c main_v3 : S1024x1024.Idx → EReal) (ix2 d e) = (m ((c : Thread nD τ).loc main_arg1) : S1024x3072.Idx → EReal) (ix2 d (⟨2048 + e.val, by omega⟩ : Fin 3072)) := by
  have h : (V1 m ρ c main_v3 : S1024x1024.Idx → EReal)
      = truncf .bf16 (extractStridedSlice S1024x1024 ![0, 2048] (m ((c : Thread nD τ).loc main_arg1) : S1024x3072.Idx → EReal) slices_S1024x3072_S1024x1024_0_2048 : FVec Ideal S1024x1024 .f32) bitsLt_bf16_f32 := by
    show StableHlo.after hostOps0 (W0 m ρ c) (Proc.devRef .tc main_v3) = _
    after_results <;> rfl
  rw [h]
  refine Eq.trans (truncf_apply (ψ := .bf16) _ bitsLt_bf16_f32 (ix2 d e)) ?_
  refine extractStridedSlice_apply (s := S1024x3072) (t := S1024x1024) _ _ _ (ix2 d e) (ix2 d (⟨2048 + e.val, by omega⟩ : Fin 3072)) (fun a => ?_)
  match a with
  | ⟨0, _⟩ => exact (Nat.zero_add _).symm
  | ⟨1, _⟩ => rfl

/-- The projection kernel's first result viewed as [4,2048,2048]: row (b, s) is row b·2048 + s. -/
theorem V3_v5_at (c : Dev nD) (b : Fin 4) (s : Fin 2048) (e : Fin 2048) (r : Fin 8192) (hr : r.val = b.val * 2048 + s.val) :
    (V3 m ρ c main_v5 : S4x2048x2048.Idx → EReal) (ix3 b s e) = (W2 m ρ c (Proc.devRef .tc main_v4_0) : S8192x2048.Idx → EReal) (ix2 r e) := by
  have h : (V3 m ρ c main_v5 : S4x2048x2048.Idx → EReal)
      = shapeCast S4x2048x2048 (W2 m ρ c (Proc.devRef .tc main_v4_0) : S8192x2048.Idx → EReal) shapeCasts_S8192x2048_S4x2048x2048 := by
    show StableHlo.after hostOps1 (W2 m ρ c) (Proc.devRef .tc main_v5) = _
    after_results <;> rfl
  rw [h]
  refine shapeCast_apply (s := S8192x2048) (t := S4x2048x2048) _ _ (ix3 b s e) (ix2 r e) ?_
  rw [Shape.rowMajor_val_three, Shape.rowMajor_val_two]
  show r.val * 2048 + e.val = (b.val * 2048 + s.val) * 2048 + e.val
  rw [hr]

/-- Its second result viewed as [4,2048,1024]. -/
theorem V3_v6_at (c : Dev nD) (b : Fin 4) (s : Fin 2048) (e : Fin 1024) (r : Fin 8192) (hr : r.val = b.val * 2048 + s.val) :
    (V3 m ρ c main_v6 : S4x2048x1024.Idx → EReal) (ix3 b s e) = (W2 m ρ c (Proc.devRef .tc main_v4_1) : S8192x1024.Idx → EReal) (ix2 r e) := by
  have h : (V3 m ρ c main_v6 : S4x2048x1024.Idx → EReal)
      = shapeCast S4x2048x1024 (W2 m ρ c (Proc.devRef .tc main_v4_1) : S8192x1024.Idx → EReal) shapeCasts_S8192x1024_S4x2048x1024 := by
    show StableHlo.after hostOps1 (W2 m ρ c) (Proc.devRef .tc main_v6) = _
    after_results <;> rfl
  rw [h]
  refine shapeCast_apply (s := S8192x1024) (t := S4x2048x1024) _ _ (ix3 b s e) (ix2 r e) ?_
  rw [Shape.rowMajor_val_three, Shape.rowMajor_val_two]
  show r.val * 1024 + e.val = (b.val * 2048 + s.val) * 1024 + e.val
  rw [hr]

end Cert.KernelIdeal.HandValue

end
-- ==== Proof.LibMatmul.lean ====
/-
  A plain matrix product read at an entry, over the extended reals, at any extents.

  The product of an `[M, K]` matrix with a `[K, N]` matrix (left operand contracted on its second axis, right operand
  on its first, no batch axis) accumulated into the zero matrix is, at `(p, e)`, the sum over the contracted coordinate
  `f` of the left operand at `(p, f)` times the right operand at `(f, e)`: the operand indices the product names at
  an output index and a contraction index are `(p, f)` and `(f, e)`, and the one-axis contraction index is its one
  coordinate. `dotGeneral_plain_apply` is the same reading of the host's product, which has no accumulator.
-/
import Idealize.ShloMosaic.Lib.ValueIdx
import Idealize.ShloMosaic.PureOps.Ideal.Laws

open scoped BigOperators

noncomputable section

namespace Cert.Lib.Matmul

open Idealize.ShloMosaic Idealize.ShloMosaic.ValueIdx

variable {M K N : ℕ}

theorem plain_lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem plain_lhs1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the product's contraction index, re-indexed by the contracted coordinate. -/
theorem plain_sum {φ₁ φ₂ : FTy} (L : FVec Ideal ⟨2, ![M, K]⟩ φ₁) (R : FVec Ideal ⟨2, ![K, N]⟩ φ₂) (p : Fin M) (e : Fin N) :
    (∑ k : (DotDims.plain M K N).contr.Idx,
        L ((DotDims.plain M K N).lhsIdx (ix2 p e) k) * R ((DotDims.plain M K N).rhsIdx (ix2 p e) k))
      = ∑ f : Fin K, L (ix2 p f) * R (ix2 f e) := by
  rw [← Equiv.sum_comp (contrEquiv1 (DotDims.plain M K N) K rfl rfl).symm]
  refine Finset.sum_congr rfl fun f _ => ?_
  have hk := contrEquiv1_symm_val (DotDims.plain M K N) K rfl rfl f
  have el : (DotDims.plain M K N).lhsIdx (ix2 p e) ((contrEquiv1 (DotDims.plain M K N) K rfl rfl).symm f) = ix2 p f :=
    funext fun a => Fin.ext (by
      match a with
      | ⟨0, _⟩ => exact plain_lhs0 _ _
      | ⟨1, _⟩ => exact (plain_lhs1 _ _).trans hk)
  have er : (DotDims.plain M K N).rhsIdx (ix2 p e) ((contrEquiv1 (DotDims.plain M K N) K rfl rfl).symm f) = ix2 f e :=
    funext fun a => Fin.ext (by
      match a with
      | ⟨0, _⟩ => exact (plain_rhs0 _ _).trans hk
      | ⟨1, _⟩ => exact plain_rhs1 _ _)
  rw [el, er]

/-- A plain `[M, K]` by `[K, N]` product into the zero accumulator, at `(p, e)`. -/
theorem matmul_plain_zero_apply {φ₁ φ₂ : FTy} (prec : Option ContractPrecision) (L : FVec Ideal ⟨2, ![M, K]⟩ φ₁)
    (R : FVec Ideal ⟨2, ![K, N]⟩ φ₂) (p : Fin M) (e : Fin N) :
    matmul (DotDims.plain M K N) prec L R (constant ⟨2, ![M, N]⟩ .f32 0x00000000#32) (ix2 p e)
      = ∑ f : Fin K, L (ix2 p f) * R (ix2 f e) :=
  (Ideal.matmul_constant_zero_apply (DotDims.plain M K N) prec L R (ix2 p e)).trans (plain_sum L R p e)

/-- The same product with an accumulator `acc`: its entry plus the sum. -/
theorem matmul_plain_apply {φ₁ φ₂ : FTy} (prec : Option ContractPrecision) (L : FVec Ideal ⟨2, ![M, K]⟩ φ₁)
    (R : FVec Ideal ⟨2, ![K, N]⟩ φ₂) (acc : FVec Ideal ⟨2, ![M, N]⟩ .f32) (p : Fin M) (e : Fin N) :
    matmul (DotDims.plain M K N) prec L R acc (ix2 p e) = acc (ix2 p e) + ∑ f : Fin K, L (ix2 p f) * R (ix2 f e) :=
  (Ideal.matmul_apply (DotDims.plain M K N) prec L R acc (ix2 p e)).trans (congrArg (acc (ix2 p e) + ·) (plain_sum L R p e))

end Cert.Lib.Matmul

end
-- ==== Proof.Value0Blocks.lean ====
/- Region 0 at the ideal reading, block by block: each store's payload at an entry as a sum of products, the printed
   index maps over the grid, and each input window's block as entries of the array it is cut from. -/
import proofs.«136138_j13357348290569_2_alg».proof.Proof.Region0
import proofs.«136138_j13357348290569_2_alg».proof.Proof.LibMatmul
import Idealize.ShloMosaic.Lib.Pipeline.Value
import Idealize.ShloMosaic.Lib.ValueIdx
import Idealize.ShloMosaic.PureOps.Ideal.Laws

open scoped BigOperators

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open Cert.Lib.Matmul

theorem hz : (![0, 0] : Fin 2 → Nat) = fun _ => 0 := funext fun a => by fin_cases a <;> rfl

/-! ## The payloads at an entry -/

/-- The printed contraction records are the plain matrix product's. -/
theorem dot3_eq : dot_S256x1024_S1024x2048_S256x2048_1_0_0_1_n_n = DotDims.plain 256 1024 2048 := rfl
theorem dot4_eq : dot_S256x1024_S1024x1024_S256x1024_1_0_0_1_n_n = DotDims.plain 256 1024 1024 := rfl

/-- Window 3's payload at (p, e): the row p of the left block against the column e of the right block. -/
theorem pay2_apply (x0 : Vec Ideal S256x1024 .f32) (x1 : Vec Ideal S1024x2048 .f32) (p : Fin 256) (e : Fin 2048) :
    k0_pay2 x0 x1 (ix2 p e) = ∑ f : Fin 1024, x0 (ix2 p f) * x1 (ix2 f e) := by
  unfold k0_pay2 k0_pay1
  simp only [shapeCast_self]
  rw [dot3_eq]
  exact matmul_plain_zero_apply (some .fp32) x0 x1 p e

/-- Window 4's payload at (p, e): a change of format is the identity at the ideal reading. -/
theorem pay3_apply (x0 : Vec Ideal S256x1024 .f32) (x2 : Vec Ideal S1024x1024 .bf16) (p : Fin 256) (e : Fin 1024) :
    k0_pay3 x0 x2 (ix2 p e) = ∑ f : Fin 1024, x0 (ix2 p f) * x2 (ix2 f e) := by
  unfold k0_pay3 k0_pay1
  simp only [shapeCast_self]
  rw [dot4_eq]
  exact matmul_plain_zero_apply (φ₁ := .bf16) (φ₂ := .bf16) none (truncf .bf16 x0 bitsLt_bf16_f32) x2 p e

/-! ## The index maps over the grid -/

/-- The printed index maps, decided over the 32 points: the row blocks move with the point, everything else stays. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

variable (V : (c : Dev nD) → (b : Ref sig .tc) → Buf (Elt Ideal) ((c : Thread nD τ).loc b))

/-! ## The arrays region 0 reads, as functions of explicit coordinates -/

/-- The left operand of both products. -/
abbrev L0 (c : Dev nD) : S8192x1024.Idx → EReal := V c main_v0
/-- The right operand of the first product. -/
abbrev R1 (c : Dev nD) : S1024x2048.Idx → EReal := V c main_v1
/-- The right operand of the second product. -/
abbrev R3 (c : Dev nD) : S1024x1024.Idx → EReal := V c main_v3

/-! ## The input blocks as entries of the arrays -/

/-- Window 0's block at point t: rows 256 t … 256 t + 255 of the left operand. -/
theorem iblk0_0_apply (c : Dev nD) (t : Fin cfg0.N) (p : Fin 256) (f : Fin 1024) (r : Fin 8192) (hr : r.val = t.val * 256 + p.val) :
    (iblk0 V c 0 t : Vec Ideal S256x1024 .f32) (ix2 p f) = L0 V c (ix2 r f) := by
  obtain ⟨e00, e01, -⟩ := idx_facts t
  unfold iblk0
  rw [View.read_apply]
  show V c main_v0 _ = V c main_v0 _
  congr 1
  funext a
  apply Fin.ext
  match a with
  | ⟨0, _⟩ => show win0_0.index t 0 * 256 + 1 * p.val = r.val; rw [e00, hr]; omega
  | ⟨1, _⟩ => show win0_0.index t 1 * 1024 + 1 * f.val = f.val; rw [e01]; omega

/-- Window 1's block at any point: the whole right operand of the first product. -/
theorem iblk0_1_apply (c : Dev nD) (t : Fin cfg0.N) (f : Fin 1024) (e : Fin 2048) :
    (iblk0 V c 1 t : Vec Ideal S1024x2048 .f32) (ix2 f e) = R1 V c (ix2 f e) := by
  obtain ⟨-, -, e10, e11, -⟩ := idx_facts t
  unfold iblk0
  rw [View.read_apply]
  show V c main_v1 _ = V c main_v1 _
  congr 1
  funext a
  apply Fin.ext
  match a with
  | ⟨0, _⟩ => show win0_1.index t 0 * 1024 + 1 * f.val = f.val; rw [e10]; omega
  | ⟨1, _⟩ => show win0_1.index t 1 * 2048 + 1 * e.val = e.val; rw [e11]; omega

/-- Window 2's block at any point: the whole right operand of the second product. -/
theorem iblk0_2_apply (c : Dev nD) (t : Fin cfg0.N) (f : Fin 1024) (e : Fin 1024) :
    (iblk0 V c 2 t : Vec Ideal S1024x1024 .bf16) (ix2 f e) = R3 V c (ix2 f e) := by
  obtain ⟨-, -, -, -, e20, e21, -⟩ := idx_facts t
  unfold iblk0
  rw [View.read_apply]
  show V c main_v3 _ = V c main_v3 _
  congr 1
  funext a
  apply Fin.ext
  match a with
  | ⟨0, _⟩ => show win0_2.index t 0 * 1024 + 1 * f.val = f.val; rw [e20]; omega
  | ⟨1, _⟩ => show win0_2.index t 1 * 1024 + 1 * e.val = e.val; rw [e21]; omega

end Cert.KernelIdeal.HandValue

end
-- ==== Proof.Value0.lean ====
/- What region 0 leaves in its two output arrays after all 32 points, at the ideal reading, for any entry contents V:
   each entry the sum over the contracted coordinate of the products of the left and right operands' entries. -/
import proofs.«136138_j13357348290569_2_alg».proof.Proof.Value0Blocks

open scoped BigOperators

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open Cert.Lib.Matmul

variable (V : (c : Dev nD) → (b : Ref sig .tc) → Buf (Elt Ideal) ((c : Thread nD τ).loc b))

/-! ## Output window 3: the first product -/

/-- What window 3's array ends holding: at (r, e), row r of the left operand against column e of the right. -/
abbrev G3 (c : Dev nD) : S8192x2048.Idx → EReal := fun i =>
  ∑ d : Fin 1024, L0 V c (ix2 (i 0) d) * R1 V c (ix2 d (i 1))

/-- What point t writes back is block t of G3. -/
theorem flushed3_eq (c : Dev nD) (t : Fin cfg0.N) :
    (dat0 V c).flushed 3 t = ((cfg0.win 3).blk t).view.read (Elt Ideal) (G3 V c) := by
  show (cfg0.win 3).cut (grid0.coords t) ((dat0 V c).after 3 t) = _
  rw [after0_3]
  unfold out0_3
  rw [View.canon_unit_zero hz]
  simp only [View.ld_unit_zero (S := S256x1024) hz, View.ld_unit_zero (S := S1024x2048) hz]
  obtain ⟨-, -, -, -, -, -, e30, e31, -⟩ := idx_facts t
  funext j
  have hj : (j : S256x2048.Idx) = ix2 (j 0) (j 1) := eq_ix2 j
  refine (congrArg (k0_pay2 (iblk0 V c 0 t) (iblk0 V c 1 t)) hj).trans ?_
  refine (pay2_apply _ _ (j 0) (j 1)).trans ?_
  rw [View.read_apply]
  show (∑ f : Fin 1024, _) = ∑ d : Fin 1024, _
  refine Finset.sum_congr rfl fun f _ => ?_
  have hr : ((((cfg0.win 3).blk t).view.emb j) 0).val = t.val * 256 + (j 0).val := by
    show win0_3.index t 0 * 256 + 1 * (j 0).val = _; rw [e30]; omega
  have hc : ((((cfg0.win 3).blk t).view.emb j) 1).val = (j 1).val := by
    show win0_3.index t 1 * 2048 + 1 * (j 1).val = _; rw [e31]; omega
  rw [iblk0_0_apply V c t (j 0) f ((((cfg0.win 3).blk t).view.emb j) 0) hr, iblk0_1_apply V c t f (j 1)]
  congr 2
  exact congrArg (ix2 f) (Fin.ext hc.symm)

/-- An index of the array is in point t's block iff each coordinate is in the block's range on its axis. -/
theorem mem_blk3 (t : Fin cfg0.N) (i : S8192x2048.Idx) :
    i ∈ ((cfg0.win 3).blk t).view.set ↔ ∀ a : Fin 2, win0_3.index t a * S256x2048.size a ≤ (i a).val ∧ (i a).val < win0_3.index t a * S256x2048.size a + S256x2048.size a := by
  show i ∈ ((View.whole main_v4_0).slice (win0_3.rect t)).set ↔ _
  rw [View.set_slice_whole, Rect.mem_set_unit]
  exact Iff.rfl

/-- Every index of the array is in the block of the point its row falls in: row r in block r / 256. -/
theorem cover3 (i : S8192x2048.Idx) : ∃ t : Fin cfg0.N, (cfg0.win 3).flush t = true ∧ i ∈ ((cfg0.win 3).blk t).view.set := by
  have hi0 : (i 0).val < 8192 := (i 0).isLt
  have hi1 : (i 1).val < 2048 := (i 1).isLt
  obtain ⟨t, ht⟩ : ∃ t : Fin cfg0.N, t.val = (i 0).val / 256 :=
    ⟨⟨(i 0).val / 256, by rw [show cfg0.N = 32 from N_0]; omega⟩, rfl⟩
  obtain ⟨-, -, -, -, -, -, e30, e31, -⟩ := idx_facts t
  refine ⟨t, flush0_3 t, ?_⟩
  rw [mem_blk3]
  intro a
  match a with
  | ⟨0, _⟩ => show win0_3.index t 0 * 256 ≤ (i 0).val ∧ (i 0).val < win0_3.index t 0 * 256 + 256; rw [e30, ht]; omega
  | ⟨1, _⟩ => show win0_3.index t 1 * 2048 ≤ (i 1).val ∧ (i 1).val < win0_3.index t 1 * 2048 + 2048; rw [e31]; omega

/-- The first output array after the run, at (r, e): row r of the left operand against column e of the right. -/
theorem final0_3 (c : Dev nD) (r : Fin 8192) (e : Fin 2048) :
    (dat0 (F := Ideal) V c).arrAt 3 cfg0.N (ix2 r e) = ∑ d : Fin 1024, L0 V c (ix2 r d) * R1 V c (ix2 d e) :=
  congrFun ((dat0 V c).arrAt_eq_of_cover 3 (G3 V c) (fun t _ => flushed3_eq V c t) cover3) (ix2 r e)

/-! ## Output window 4: the second product -/

/-- What window 4's array ends holding: at (r, e), row r of the left operand against column e of the right. -/
abbrev G4 (c : Dev nD) : S8192x1024.Idx → EReal := fun i =>
  ∑ d : Fin 1024, L0 V c (ix2 (i 0) d) * R3 V c (ix2 d (i 1))

/-- What point t writes back is block t of G4. -/
theorem flushed4_eq (c : Dev nD) (t : Fin cfg0.N) :
    (dat0 V c).flushed 4 t = ((cfg0.win 4).blk t).view.read (Elt Ideal) (G4 V c) := by
  show (cfg0.win 4).cut (grid0.coords t) ((dat0 V c).after 4 t) = _
  rw [after0_4]
  unfold out0_4
  rw [View.canon_unit_zero hz]
  simp only [View.ld_unit_zero (S := S256x1024) hz, View.ld_unit_zero (S := S1024x1024) hz]
  obtain ⟨-, -, -, -, -, -, -, -, e40, e41⟩ := idx_facts t
  funext j
  have hj : (j : S256x1024.Idx) = ix2 (j 0) (j 1) := eq_ix2 j
  refine (congrArg (k0_pay3 (iblk0 V c 0 t) (iblk0 V c 2 t)) hj).trans ?_
  refine (pay3_apply _ _ (j 0) (j 1)).trans ?_
  rw [View.read_apply]
  show (∑ f : Fin 1024, _) = ∑ d : Fin 1024, _
  refine Finset.sum_congr rfl fun f _ => ?_
  have hr : ((((cfg0.win 4).blk t).view.emb j) 0).val = t.val * 256 + (j 0).val := by
    show win0_4.index t 0 * 256 + 1 * (j 0).val = _; rw [e40]; omega
  have hc : ((((cfg0.win 4).blk t).view.emb j) 1).val = (j 1).val := by
    show win0_4.index t 1 * 1024 + 1 * (j 1).val = _; rw [e41]; omega
  rw [iblk0_0_apply V c t (j 0) f ((((cfg0.win 4).blk t).view.emb j) 0) hr, iblk0_2_apply V c t f (j 1)]
  congr 2
  exact congrArg (ix2 f) (Fin.ext hc.symm)

/-- An index of the array is in point t's block iff each coordinate is in the block's range on its axis. -/
theorem mem_blk4 (t : Fin cfg0.N) (i : S8192x1024.Idx) :
    i ∈ ((cfg0.win 4).blk t).view.set ↔ ∀ a : Fin 2, win0_4.index t a * S256x1024.size a ≤ (i a).val ∧ (i a).val < win0_4.index t a * S256x1024.size a + S256x1024.size a := by
  show i ∈ ((View.whole main_v4_1).slice (win0_4.rect t)).set ↔ _
  rw [View.set_slice_whole, Rect.mem_set_unit]
  exact Iff.rfl

/-- Every index of the array is in the block of the point its row falls in: row r in block r / 256. -/
theorem cover4 (i : S8192x1024.Idx) : ∃ t : Fin cfg0.N, (cfg0.win 4).flush t = true ∧ i ∈ ((cfg0.win 4).blk t).view.set := by
  have hi0 : (i 0).val < 8192 := (i 0).isLt
  have hi1 : (i 1).val < 1024 := (i 1).isLt
  obtain ⟨t, ht⟩ : ∃ t : Fin cfg0.N, t.val = (i 0).val / 256 :=
    ⟨⟨(i 0).val / 256, by rw [show cfg0.N = 32 from N_0]; omega⟩, rfl⟩
  obtain ⟨-, -, -, -, -, -, -, -, e40, e41⟩ := idx_facts t
  refine ⟨t, flush0_4 t, ?_⟩
  rw [mem_blk4]
  intro a
  match a with
  | ⟨0, _⟩ => show win0_4.index t 0 * 256 ≤ (i 0).val ∧ (i 0).val < win0_4.index t 0 * 256 + 256; rw [e40, ht]; omega
  | ⟨1, _⟩ => show win0_4.index t 1 * 1024 ≤ (i 1).val ∧ (i 1).val < win0_4.index t 1 * 1024 + 1024; rw [e41]; omega

/-- The second output array after the run, at (r, e): row r of the left operand against column e of the right. -/
theorem final0_4 (c : Dev nD) (r : Fin 8192) (e : Fin 1024) :
    (dat0 (F := Ideal) V c).arrAt 4 cfg0.N (ix2 r e) = ∑ d : Fin 1024, L0 V c (ix2 r d) * R3 V c (ix2 d e) :=
  congrFun ((dat0 V c).arrAt_eq_of_cover 4 (G4 V c) (fun t _ => flushed4_eq V c t) cover4) (ix2 r e)

end Cert.KernelIdeal.HandValue

end
-- ==== Proof.Spec.lean ====
/-
  The function both programs compute, written index by index over the extended reals.

  From an activation array x[b, s, d] (4 x 2048 x 1024) and a weight matrix W[d, e] (1024 x 3072):
  every row (b, s) is projected, proj b s e = Σ_d x[b,s,d] · W[d,e]; columns 0..1023 of the projection are
  the queries, 1024..2047 the keys, 2048..3071 the values.  The score of query q against key k is the inner
  product of their rows times 2^-5; each key COLUMN of the scores is normalised over the QUERIES (the
  column's maximum subtracted, the exponential taken, divided by the column's sum); the result at
  (b, q, d) is the sum over the keys of weight(b, q, k) · value(b, k, d), the 2048 keys taken in 16
  blocks of 128.
-/
import Idealize.ShloMosaic.PureOps.Ideal
import Idealize.ShloMosaic.Lib.ValueIdx

open scoped BigOperators

noncomputable section

namespace Cert.Spec

open Idealize.ShloMosaic Idealize.ShloMosaic.ValueIdx

/-- The activations' shape and the weights' shape. -/
abbrev SX : Shape := ⟨3, ![4, 2048, 1024]⟩
abbrev SW : Shape := ⟨2, ![1024, 3072]⟩

variable (x : SX.Idx → EReal) (W : SW.Idx → EReal)

/-- Row (b, s) of the activations against column e of the weights. -/
def proj (b : Fin 4) (s : Fin 2048) (e : Fin 3072) : EReal := ∑ d : Fin 1024, x (ix3 b s d) * W (ix2 d e)

/-- Where the query, key and value parts sit among the 3072 projected columns. -/
def qcol (d : Fin 1024) : Fin 3072 := ⟨d.val, by omega⟩
def kcol (d : Fin 1024) : Fin 3072 := ⟨1024 + d.val, by omega⟩
def vcol (d : Fin 1024) : Fin 3072 := ⟨2048 + d.val, by omega⟩

/-- The scale 2^-5 = 1/32, as the float word the kernel multiplies by. -/
def scale : EReal := Ideal.ofBits .f32 0x3D000000#32

/-- The scaled score of query q against key k. -/
def score (b : Fin 4) (q k : Fin 2048) : EReal :=
  (∑ d : Fin 1024, proj x W b q (qcol d) * proj x W b k (kcol d)) * scale

/-- The largest score in key column k, over all queries (from -inf). -/
def colmax (b : Fin 4) (k : Fin 2048) : EReal :=
  (Finset.univ : Finset (Fin 2048)).fold max (Ideal.ofBits .f32 0xFF800000#32) (fun q => score x W b q k)

/-- The exponential of a score less its column's maximum. -/
def ex (b : Fin 4) (q k : Fin 2048) : EReal := Ideal.exp (score x W b q k - colmax x W b k)

/-- The column's normaliser: the sum of those exponentials over the queries. -/
def den (b : Fin 4) (k : Fin 2048) : EReal := ∑ q : Fin 2048, ex x W b q k

/-- The weight of key k for query q. -/
def attn (b : Fin 4) (q k : Fin 2048) : EReal := Ideal.div (ex x W b q k) (den x W b k)

/-- Key number kk of block kt. -/
def key (kt : Fin 16) (kk : Fin 128) : Fin 2048 := ⟨kt.val * 128 + kk.val, by omega⟩

/-- What block kt of 128 keys adds to the result at (b, q, d). -/
def contrib (b : Fin 4) (kt : Fin 16) (q : Fin 2048) (d : Fin 1024) : EReal :=
  ∑ kk : Fin 128, attn x W b q (key kt kk) * proj x W b (key kt kk) (vcol d)

/-- The result at coordinates. -/
def Gat (b : Fin 4) (q : Fin 2048) (d : Fin 1024) : EReal := ∑ kt : Fin 16, contrib x W b kt q d

/-- The result array. -/
def G : SX.Idx → EReal := fun i => Gat x W (i 0) (i 1) (i 2)

theorem G_ix3 (b : Fin 4) (q : Fin 2048) (d : Fin 1024) : G x W (ix3 b q d) = Gat x W b q d := rfl

end Cert.Spec

end
-- ==== Proof.SpecP.lean ====
/-
  The same result function as in Spec.lean, stated over an arbitrary table P b s e of projected rows (4 batches,
  2048 rows, 3072 columns: queries, keys, values), so that it can be read off arrays that hold the projection
  in any layout; at P = the projection of the activations by the weights it is Spec's function, by unfolding.
-/
import proofs.«136138_j13357348290569_2_alg».proof.Proof.Spec

open scoped BigOperators

noncomputable section

namespace Cert.SpecP

open Idealize.ShloMosaic Idealize.ShloMosaic.ValueIdx Cert.Spec

variable (P : Fin 4 → Fin 2048 → Fin 3072 → EReal)

/-- The scaled score of query q against key k. -/
def score (b : Fin 4) (q k : Fin 2048) : EReal := (∑ d : Fin 1024, P b q (qcol d) * P b k (kcol d)) * scale

/-- The largest score in key column k, over all queries (from -inf). -/
def colmax (b : Fin 4) (k : Fin 2048) : EReal :=
  (Finset.univ : Finset (Fin 2048)).fold max (Ideal.ofBits .f32 0xFF800000#32) (fun q => score P b q k)

def ex (b : Fin 4) (q k : Fin 2048) : EReal := Ideal.exp (score P b q k - colmax P b k)

def den (b : Fin 4) (k : Fin 2048) : EReal := ∑ q : Fin 2048, ex P b q k

def attn (b : Fin 4) (q k : Fin 2048) : EReal := Ideal.div (ex P b q k) (den P b k)

/-- What block kt of 128 keys adds to the result at (b, q, d). -/
def contrib (b : Fin 4) (kt : Fin 16) (q : Fin 2048) (d : Fin 1024) : EReal :=
  ∑ kk : Fin 128, attn P b q (key kt kk) * P b (key kt kk) (vcol d)

def Gat (b : Fin 4) (q : Fin 2048) (d : Fin 1024) : EReal := ∑ kt : Fin 16, contrib P b kt q d

/-- At the projection of the activations by the weights this is Spec's function. -/
theorem Gat_proj (x : SX.Idx → EReal) (W : SW.Idx → EReal) (b : Fin 4) (q : Fin 2048) (d : Fin 1024) :
    Gat (proj x W) b q d = Cert.Spec.Gat x W b q d := rfl

end Cert.SpecP

end
-- ==== Proof.Value1Acc.lean ====
/-
  Region 1 (the attention kernel), from blocks to the array.

  A grid point t = 16·b + kt reads, through its three input windows, the query columns of batch b (all 2048 rows),
  the key columns of the 128 rows of key block kt, and the value columns of those rows; so when the two input arrays
  hold a table P of projected rows, what the point adds to the output block at (q, d) is the specification's
  contribution of block kt.  By induction on kt the output block after point 16·b + kt holds the sum of the
  contributions of blocks 0..kt; after kt = 15 it is written back to batch b of the output array, and the four
  written blocks cover the array: it ends holding the sum over the 16 key blocks at every index.

  What one point's body leaves at an index enters as a function T with three laws (the kt = 0 point leaves T, a
  later point leaves what it found plus T, and T of the blocks that hold P's columns is the contribution).
-/
import proofs.«136138_j13357348290569_2_alg».proof.Proof.Region1
import proofs.«136138_j13357348290569_2_alg».proof.Proof.SpecP
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable {F : FTy → Type} [FloatOps F]

/-- The windows' block indices at point t, decided over the 64 grid points: the batch is t / 16 on every window,
    the key block t % 16 on the key and value windows, and the key window sits in the second half of the columns. -/
theorem idx_facts1 : ∀ t : Fin cfg1.N,
    win1_0.index t (0 : Fin 3) = t.val / 16 ∧ win1_0.index t (1 : Fin 3) = 0 ∧ win1_0.index t (2 : Fin 3) = 0
    ∧ win1_1.index t (0 : Fin 3) = t.val / 16 ∧ win1_1.index t (1 : Fin 3) = t.val % 16 ∧ win1_1.index t (2 : Fin 3) = 1
    ∧ win1_2.index t (0 : Fin 3) = t.val / 16 ∧ win1_2.index t (1 : Fin 3) = t.val % 16 ∧ win1_2.index t (2 : Fin 3) = 0
    ∧ win1_3.index t (0 : Fin 3) = t.val / 16 ∧ win1_3.index t (1 : Fin 3) = 0 ∧ win1_3.index t (2 : Fin 3) = 0 :=
  (by decide +kernel : ∀ t : Fin grid1.N, _)

variable (V : (c : Dev nD) → (b : Ref sig .tc) → Buf (Elt F) ((c : Thread nD τ).loc b))

/-- The query window's block at point 16·b + kt is batch b of the first 1024 columns. -/
theorem iblk1_0_at (c : Dev nD) (t : Fin cfg1.N) (b : Fin 4) (kt : Fin 16) (ht : t.val = 16 * b.val + kt.val)
    (q : Fin 2048) (f : Fin 1024) :
    iblk1 V c 0 t (ix3 (0 : Fin 1) q f) = V c main_v5 (ix3 b q (⟨f.val, by omega⟩ : Fin 2048)) := by
  obtain ⟨e0, e1, e2, -⟩ := idx_facts1 t
  unfold iblk1
  show V c main_v5 (((cfg1.win 0).blk t).view.emb (ix3 (0 : Fin 1) q f)) = V c main_v5 _
  refine congrArg (V c main_v5) (funext fun a => Fin.ext ?_)
  match a with
  | ⟨0, _⟩ => show win1_0.index t (0 : Fin 3) * 1 + 1 * 0 = b.val; omega
  | ⟨1, _⟩ => show win1_0.index t (1 : Fin 3) * 2048 + 1 * q.val = q.val; omega
  | ⟨2, _⟩ => show win1_0.index t (2 : Fin 3) * 1024 + 1 * f.val = f.val; omega

/-- The key window's block is rows kt·128.. of batch b, columns 1024... -/
theorem iblk1_1_at (c : Dev nD) (t : Fin cfg1.N) (b : Fin 4) (kt : Fin 16) (ht : t.val = 16 * b.val + kt.val)
    (kk : Fin 128) (f : Fin 1024) :
    iblk1 V c 1 t (ix3 (0 : Fin 1) kk f)
      = V c main_v5 (ix3 b (Cert.Spec.key kt kk) (⟨1024 + f.val, by omega⟩ : Fin 2048)) := by
  obtain ⟨-, -, -, e0, e1, e2, -⟩ := idx_facts1 t
  unfold iblk1
  show V c main_v5 (((cfg1.win 1).blk t).view.emb (ix3 (0 : Fin 1) kk f)) = V c main_v5 _
  refine congrArg (V c main_v5) (funext fun a => Fin.ext ?_)
  match a with
  | ⟨0, _⟩ => show win1_1.index t (0 : Fin 3) * 1 + 1 * 0 = b.val; omega
  | ⟨1, _⟩ => show win1_1.index t (1 : Fin 3) * 128 + 1 * kk.val = kt.val * 128 + kk.val; omega
  | ⟨2, _⟩ => show win1_1.index t (2 : Fin 3) * 1024 + 1 * f.val = 1024 + f.val; omega

/-- The value window's block is rows kt·128.. of batch b of the value array. -/
theorem iblk1_2_at (c : Dev nD) (t : Fin cfg1.N) (b : Fin 4) (kt : Fin 16) (ht : t.val = 16 * b.val + kt.val)
    (kk : Fin 128) (d : Fin 1024) :
    iblk1 V c 2 t (ix3 (0 : Fin 1) kk d) = V c main_v6 (ix3 b (Cert.Spec.key kt kk) d) := by
  obtain ⟨-, -, -, -, -, -, e0, e1, e2, -⟩ := idx_facts1 t
  unfold iblk1
  show V c main_v6 (((cfg1.win 2).blk t).view.emb (ix3 (0 : Fin 1) kk d)) = V c main_v6 _
  refine congrArg (V c main_v6) (funext fun a => Fin.ext ?_)
  match a with
  | ⟨0, _⟩ => show win1_2.index t (0 : Fin 3) * 1 + 1 * 0 = b.val; omega
  | ⟨1, _⟩ => show win1_2.index t (1 : Fin 3) * 128 + 1 * kk.val = kt.val * 128 + kk.val; omega
  | ⟨2, _⟩ => show win1_2.index t (2 : Fin 3) * 1024 + 1 * d.val = d.val; omega

section AtIdeal

open scoped BigOperators

variable (V : (c : Dev nD) → (b : Ref sig .tc) → Buf (Elt Ideal) ((c : Thread nD τ).loc b)) (c : Dev nD)
  (P : Fin 4 → Fin 2048 → Fin 3072 → EReal)
  (T : Vec Ideal S1x2048x1024 .f32 → Vec Ideal S1x128x1024 .f32 → Vec Ideal S1x128x1024 .bf16 → Fin 2048 → Fin 1024 → EReal)

/-- The contribution of key block j, zero past the last block. -/
def contribN (b : Fin 4) (q : Fin 2048) (d : Fin 1024) (j : ℕ) : EReal :=
  if h : j < 16 then Cert.SpecP.contrib P b ⟨j, h⟩ q d else 0

/-- The sixteen of them sum to the result. -/
theorem sum_contribN (b : Fin 4) (q : Fin 2048) (d : Fin 1024) :
    ∑ j ∈ Finset.range 16, contribN P b q d j = Cert.SpecP.Gat P b q d := by
  unfold Cert.SpecP.Gat
  rw [← Fin.sum_univ_eq_sum_range (fun j => contribN P b q d j) 16]
  refine Finset.sum_congr rfl fun kt _ => ?_
  unfold contribN
  rw [dif_pos kt.isLt]

/-- After point 16·b + n the output block holds, at (q, d), the contributions of key blocks 0..n. -/
theorem outsAt1_at
    (hA : ∀ x0 x1 x2 q d, outA (F := Ideal) x0 x1 x2 (ix3 (0 : Fin 1) q d) = T x0 x1 x2 q d)
    (hB : ∀ x0 x1 x2 xo q d, outB (F := Ideal) x0 x1 x2 xo (ix3 (0 : Fin 1) q d) = xo (ix3 (0 : Fin 1) q d) + T x0 x1 x2 q d)
    (hT : ∀ x0 x1 x2 (b : Fin 4) (kt : Fin 16),
      (∀ q f, x0 (ix3 (0 : Fin 1) q f) = P b q (Cert.Spec.qcol f)) →
      (∀ kk f, x1 (ix3 (0 : Fin 1) kk f) = P b (Cert.Spec.key kt kk) (Cert.Spec.kcol f)) →
      (∀ kk d, x2 (ix3 (0 : Fin 1) kk d) = P b (Cert.Spec.key kt kk) (Cert.Spec.vcol d)) →
      ∀ q d, T x0 x1 x2 q d = Cert.SpecP.contrib P b kt q d)
    (hq : ∀ (b : Fin 4) (s : Fin 2048) (f : Fin 1024), V c main_v5 (ix3 b s (⟨f.val, by omega⟩ : Fin 2048)) = P b s (Cert.Spec.qcol f))
    (hk : ∀ (b : Fin 4) (s : Fin 2048) (f : Fin 1024), V c main_v5 (ix3 b s (⟨1024 + f.val, by omega⟩ : Fin 2048)) = P b s (Cert.Spec.kcol f))
    (hv : ∀ (b : Fin 4) (s : Fin 2048) (f : Fin 1024), V c main_v6 (ix3 b s f) = P b s (Cert.Spec.vcol f))
    (b : Fin 4) (q : Fin 2048) (d : Fin 1024) :
    ∀ (n : ℕ) (hn : n < 16) (t : Fin cfg1.N) (ht : t.val = 16 * b.val + n),
      outsAt1 V c t.val t.isLt (ix3 (0 : Fin 1) q d) = ∑ j ∈ Finset.range (n + 1), contribN P b q d j
  | 0, hn, t, ht => by
    have h0 : t.val % 16 = 0 := by omega
    refine (congrFun (outsAt1_A V c t h0) (ix3 (0 : Fin 1) q d)).trans ?_
    refine (hA (iblk1 V c 0 t) (iblk1 V c 1 t) (iblk1 V c 2 t) q d).trans ?_
    rw [Finset.sum_range_one]
    refine (hT (iblk1 V c 0 t) (iblk1 V c 1 t) (iblk1 V c 2 t) b ⟨0, hn⟩ ?_ ?_ ?_ q d).trans ?_
    · intro q f; exact (iblk1_0_at V c t b ⟨0, hn⟩ ht q f).trans (hq b q f)
    · intro kk f; exact (iblk1_1_at V c t b ⟨0, hn⟩ ht kk f).trans (hk b _ f)
    · intro kk d; exact (iblk1_2_at V c t b ⟨0, hn⟩ ht kk d).trans (hv b _ d)
    · unfold contribN; rw [dif_pos hn]
  | n + 1, hn, t, ht => by
    have h0 : ¬ t.val % 16 = 0 := by omega
    have hN : t.val < 64 := lt_of_lt_of_eq t.isLt (show cfg1.N = 64 from N_1)
    refine (congrFun (outsAt1_B V c t h0) (ix3 (0 : Fin 1) q d)).trans ?_
    refine (hB (iblk1 V c 0 t) (iblk1 V c 1 t) (iblk1 V c 2 t) _ q d).trans ?_
    rw [Finset.sum_range_succ _ (n + 1)]
    refine congrArg₂ (· + ·) ?_ ?_
    · exact outsAt1_at hA hB hT hq hk hv b q d n (by omega) ⟨t.val - 1, Nat.lt_of_le_of_lt (Nat.sub_le _ _) t.isLt⟩
        (by show t.val - 1 = 16 * b.val + n; omega)
    · refine (hT (iblk1 V c 0 t) (iblk1 V c 1 t) (iblk1 V c 2 t) b ⟨n + 1, hn⟩ ?_ ?_ ?_ q d).trans ?_
      · intro q f; exact (iblk1_0_at V c t b ⟨n + 1, hn⟩ ht q f).trans (hq b q f)
      · intro kk f; exact (iblk1_1_at V c t b ⟨n + 1, hn⟩ ht kk f).trans (hk b _ f)
      · intro kk d; exact (iblk1_2_at V c t b ⟨n + 1, hn⟩ ht kk d).trans (hv b _ d)
      · unfold contribN; rw [dif_pos hn]

end AtIdeal

section Final

open scoped BigOperators

variable (V : (c : Dev nD) → (b : Ref sig .tc) → Buf (Elt Ideal) ((c : Thread nD τ).loc b)) (c : Dev nD)
  (P : Fin 4 → Fin 2048 → Fin 3072 → EReal)
  (T : Vec Ideal S1x2048x1024 .f32 → Vec Ideal S1x128x1024 .f32 → Vec Ideal S1x128x1024 .bf16 → Fin 2048 → Fin 1024 → EReal)

/-- The result function, as contents of the output array. -/
def G1 : Buf (Elt Ideal) ((cfg1.win 3).arr.view.loc (c.tc : Thread nD τ)) :=
  fun i => Cert.SpecP.Gat P (i 0) (i 1) (i 2)

/-- What a point with kt = 15 writes back is its block of the result function. -/
theorem flushed1_eq
    (hA : ∀ x0 x1 x2 q d, outA (F := Ideal) x0 x1 x2 (ix3 (0 : Fin 1) q d) = T x0 x1 x2 q d)
    (hB : ∀ x0 x1 x2 xo q d, outB (F := Ideal) x0 x1 x2 xo (ix3 (0 : Fin 1) q d) = xo (ix3 (0 : Fin 1) q d) + T x0 x1 x2 q d)
    (hT : ∀ x0 x1 x2 (b : Fin 4) (kt : Fin 16),
      (∀ q f, x0 (ix3 (0 : Fin 1) q f) = P b q (Cert.Spec.qcol f)) →
      (∀ kk f, x1 (ix3 (0 : Fin 1) kk f) = P b (Cert.Spec.key kt kk) (Cert.Spec.kcol f)) →
      (∀ kk d, x2 (ix3 (0 : Fin 1) kk d) = P b (Cert.Spec.key kt kk) (Cert.Spec.vcol d)) →
      ∀ q d, T x0 x1 x2 q d = Cert.SpecP.contrib P b kt q d)
    (hq : ∀ (b : Fin 4) (s : Fin 2048) (f : Fin 1024), V c main_v5 (ix3 b s (⟨f.val, by omega⟩ : Fin 2048)) = P b s (Cert.Spec.qcol f))
    (hk : ∀ (b : Fin 4) (s : Fin 2048) (f : Fin 1024), V c main_v5 (ix3 b s (⟨1024 + f.val, by omega⟩ : Fin 2048)) = P b s (Cert.Spec.kcol f))
    (hv : ∀ (b : Fin 4) (s : Fin 2048) (f : Fin 1024), V c main_v6 (ix3 b s f) = P b s (Cert.Spec.vcol f))
    (t : Fin cfg1.N) (hf : (cfg1.win 3).flush t = true) :
    (dat1 (F := Ideal) V c).flushed 3 t = ((cfg1.win 3).blk t).view.read (Elt Ideal) (G1 c P) := by
  have h15 : t.val % 16 = 15 := (flush1_3 t).mp hf
  have hN : t.val < 64 := lt_of_lt_of_eq t.isLt (show cfg1.N = 64 from N_1)
  obtain ⟨-, -, -, -, -, -, -, -, -, e0, e1, e2⟩ := idx_facts1 t
  show (cfg1.win 3).cut (grid1.coords t) ((dat1 (F := Ideal) V c).after 3 t) = _
  rw [after1_3]
  funext y
  have hy : y = ix3 (0 : Fin 1) (y 1) (y 2) := by
    funext a
    match a with
    | ⟨0, _⟩ => exact Subsingleton.elim (α := Fin 1) _ _
    | ⟨1, _⟩ => rfl
    | ⟨2, _⟩ => rfl
  have hb : t.val / 16 < 4 := by omega
  show outsAt1 V c t.val t.isLt y = Cert.SpecP.Gat P ((((cfg1.win 3).blk t).view.emb y) 0) ((((cfg1.win 3).blk t).view.emb y) 1) ((((cfg1.win 3).blk t).view.emb y) 2)
  have c0 : (((cfg1.win 3).blk t).view.emb y) 0 = (⟨t.val / 16, hb⟩ : Fin 4) := Fin.ext (by
    show win1_3.index t (0 : Fin 3) * 1 + 1 * (y 0).val = t.val / 16
    have : (y 0).val < 1 := (y 0).isLt
    omega)
  have c1 : (((cfg1.win 3).blk t).view.emb y) 1 = (y 1 : Fin 2048) := Fin.ext (by
    show win1_3.index t (1 : Fin 3) * 2048 + 1 * (y 1).val = (y 1).val
    omega)
  have c2 : (((cfg1.win 3).blk t).view.emb y) 2 = (y 2 : Fin 1024) := Fin.ext (by
    show win1_3.index t (2 : Fin 3) * 1024 + 1 * (y 2).val = (y 2).val
    omega)
  have key : outsAt1 V c t.val t.isLt (ix3 (0 : Fin 1) (y 1 : Fin 2048) (y 2 : Fin 1024))
      = Cert.SpecP.Gat P ⟨t.val / 16, hb⟩ (y 1 : Fin 2048) (y 2 : Fin 1024) :=
    (outsAt1_at V c P T hA hB hT hq hk hv ⟨t.val / 16, hb⟩ (y 1 : Fin 2048) (y 2 : Fin 1024) 15 (by omega) t
      (by show t.val = 16 * (t.val / 16) + 15; omega)).trans (sum_contribN P _ _ _)
  rw [c0, c1, c2]
  exact (congrArg (outsAt1 V c t.val t.isLt) hy).trans key

end Final

section Cover

open scoped BigOperators

variable (V : (c : Dev nD) → (b : Ref sig .tc) → Buf (Elt Ideal) ((c : Thread nD τ).loc b)) (c : Dev nD)
  (P : Fin 4 → Fin 2048 → Fin 3072 → EReal)
  (T : Vec Ideal S1x2048x1024 .f32 → Vec Ideal S1x128x1024 .f32 → Vec Ideal S1x128x1024 .bf16 → Fin 2048 → Fin 1024 → EReal)

/-- Batch b of the output array is covered by the block written back after the last key block of batch b. -/
theorem cover13 (i : S4x2048x1024.Idx) :
    ∃ t : Fin cfg1.N, (cfg1.win 3).flush t = true ∧ i ∈ ((cfg1.win 3).blk t).view.set := by
  have h0 : (i 0 : ℕ) < 4 := (i 0).isLt
  have h1 : (i 1 : ℕ) < 2048 := (i 1).isLt
  have h2 : (i 2 : ℕ) < 1024 := (i 2).isLt
  have hN : 16 * (i 0 : ℕ) + 15 < cfg1.N := by rw [show cfg1.N = 64 from N_1]; omega
  refine ⟨⟨16 * (i 0 : ℕ) + 15, hN⟩, (flush1_3 _).mpr (by show (16 * (i 0 : ℕ) + 15) % 16 = 15; omega), ?_⟩
  obtain ⟨-, -, -, -, -, -, -, -, -, e0, e1, e2⟩ := idx_facts1 ⟨16 * (i 0 : ℕ) + 15, hN⟩
  have e0' : win1_3.index ⟨16 * (i 0 : ℕ) + 15, hN⟩ (0 : Fin 3) = (i 0 : ℕ) := by
    rw [e0]; show (16 * (i 0 : ℕ) + 15) / 16 = _; omega
  show i ∈ ((View.whole main_v7).slice (win1_3.rect ⟨16 * (i 0 : ℕ) + 15, hN⟩)).set
  rw [View.set_slice_whole, Rect.mem_set_unit]
  intro a
  match a with
  | ⟨0, _⟩ =>
    show win1_3.index ⟨16 * (i 0 : ℕ) + 15, hN⟩ (0 : Fin 3) * 1 ≤ (i 0 : ℕ)
      ∧ (i 0 : ℕ) < win1_3.index ⟨16 * (i 0 : ℕ) + 15, hN⟩ (0 : Fin 3) * 1 + 1
    omega
  | ⟨1, _⟩ =>
    show win1_3.index ⟨16 * (i 0 : ℕ) + 15, hN⟩ (1 : Fin 3) * 2048 ≤ (i 1 : ℕ)
      ∧ (i 1 : ℕ) < win1_3.index ⟨16 * (i 0 : ℕ) + 15, hN⟩ (1 : Fin 3) * 2048 + 2048
    omega
  | ⟨2, _⟩ =>
    show win1_3.index ⟨16 * (i 0 : ℕ) + 15, hN⟩ (2 : Fin 3) * 1024 ≤ (i 2 : ℕ)
      ∧ (i 2 : ℕ) < win1_3.index ⟨16 * (i 0 : ℕ) + 15, hN⟩ (2 : Fin 3) * 1024 + 1024
    omega

/-- After all points the output array holds the result function, given what one point's body leaves at an index
    (T, with its three laws) and the table P the two input arrays hold. -/
theorem final1_of
    (hA : ∀ x0 x1 x2 q d, outA (F := Ideal) x0 x1 x2 (ix3 (0 : Fin 1) q d) = T x0 x1 x2 q d)
    (hB : ∀ x0 x1 x2 xo q d, outB (F := Ideal) x0 x1 x2 xo (ix3 (0 : Fin 1) q d) = xo (ix3 (0 : Fin 1) q d) + T x0 x1 x2 q d)
    (hT : ∀ x0 x1 x2 (b : Fin 4) (kt : Fin 16),
      (∀ q f, x0 (ix3 (0 : Fin 1) q f) = P b q (Cert.Spec.qcol f)) →
      (∀ kk f, x1 (ix3 (0 : Fin 1) kk f) = P b (Cert.Spec.key kt kk) (Cert.Spec.kcol f)) →
      (∀ kk d, x2 (ix3 (0 : Fin 1) kk d) = P b (Cert.Spec.key kt kk) (Cert.Spec.vcol d)) →
      ∀ q d, T x0 x1 x2 q d = Cert.SpecP.contrib P b kt q d)
    (hq : ∀ (b : Fin 4) (s : Fin 2048) (f : Fin 1024), V c main_v5 (ix3 b s (⟨f.val, by omega⟩ : Fin 2048)) = P b s (Cert.Spec.qcol f))
    (hk : ∀ (b : Fin 4) (s : Fin 2048) (f : Fin 1024), V c main_v5 (ix3 b s (⟨1024 + f.val, by omega⟩ : Fin 2048)) = P b s (Cert.Spec.kcol f))
    (hv : ∀ (b : Fin 4) (s : Fin 2048) (f : Fin 1024), V c main_v6 (ix3 b s f) = P b s (Cert.Spec.vcol f))
    (b : Fin 4) (q : Fin 2048) (d : Fin 1024) :
    (dat1 (F := Ideal) V c).arrAt 3 cfg1.N (ix3 b q d) = Cert.SpecP.Gat P b q d := by
  have h := (dat1 (F := Ideal) V c).arrAt_eq_of_cover 3 (G1 c P) (flushed1_eq V c P T hA hB hT hq hk hv) (fun i => cover13 i)
  exact congrFun h (ix3 b q d)

end Cover

end Cert.KernelIdeal.HandValue

end
-- ==== Proof.LibMatmulT.lean ====
/-
  A matrix product with the right operand contracted on its LAST axis, read at an entry, over the extended reals, at any
  extents.

  The product of an `[M, K]` matrix with an `[N, K]` matrix (both contracted on their second axis, no batch axis:
  `L · Rᵀ`) accumulated into the zero matrix is, at `(p, e)`, the sum over the contracted coordinate `f` of the left
  operand at `(p, f)` times the right operand at `(e, f)`: the operand indices the product names at an output index and
  a contraction index are `(p, f)` and `(e, f)`, and the one-axis contraction index is its one coordinate.
-/
import Idealize.ShloMosaic.Lib.ValueIdx
import Idealize.ShloMosaic.PureOps.Ideal.Laws

open scoped BigOperators

noncomputable section

namespace Cert.Lib.MatmulT

open Idealize.ShloMosaic Idealize.ShloMosaic.ValueIdx

variable {M K N : ℕ}

theorem trhs_lhs0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

theorem trhs_lhs1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

theorem trhs_rhs0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

theorem trhs_rhs1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- The sum over the product's contraction index, re-indexed by the contracted coordinate. -/
theorem trhs_sum {φ₁ φ₂ : FTy} (L : FVec Ideal ⟨2, ![M, K]⟩ φ₁) (R : FVec Ideal ⟨2, ![N, K]⟩ φ₂) (p : Fin M) (e : Fin N) :
    (∑ k : (DotDims.transposedRhs M K N).contr.Idx,
        L ((DotDims.transposedRhs M K N).lhsIdx (ix2 p e) k) * R ((DotDims.transposedRhs M K N).rhsIdx (ix2 p e) k))
      = ∑ f : Fin K, L (ix2 p f) * R (ix2 e f) := by
  rw [← Equiv.sum_comp (contrEquiv1 (DotDims.transposedRhs M K N) K rfl rfl).symm]
  refine Finset.sum_congr rfl fun f _ => ?_
  have hk := contrEquiv1_symm_val (DotDims.transposedRhs M K N) K rfl rfl f
  have el : (DotDims.transposedRhs M K N).lhsIdx (ix2 p e) ((contrEquiv1 (DotDims.transposedRhs M K N) K rfl rfl).symm f) = ix2 p f :=
    funext fun a => Fin.ext (by
      match a with
      | ⟨0, _⟩ => exact trhs_lhs0 _ _
      | ⟨1, _⟩ => exact (trhs_lhs1 _ _).trans hk)
  have er : (DotDims.transposedRhs M K N).rhsIdx (ix2 p e) ((contrEquiv1 (DotDims.transposedRhs M K N) K rfl rfl).symm f) = ix2 e f :=
    funext fun a => Fin.ext (by
      match a with
      | ⟨0, _⟩ => exact trhs_rhs0 _ _
      | ⟨1, _⟩ => exact (trhs_rhs1 _ _).trans hk)
  rw [el, er]

/-- An `[M, K]` by `[N, K]` product (right operand contracted on its last axis) into the zero accumulator, at `(p, e)`. -/
theorem matmul_trhs_zero_apply {φ₁ φ₂ : FTy} (prec : Option ContractPrecision) (L : FVec Ideal ⟨2, ![M, K]⟩ φ₁)
    (R : FVec Ideal ⟨2, ![N, K]⟩ φ₂) (p : Fin M) (e : Fin N) :
    matmul (DotDims.transposedRhs M K N) prec L R (constant ⟨2, ![M, N]⟩ .f32 0x00000000#32) (ix2 p e)
      = ∑ f : Fin K, L (ix2 p f) * R (ix2 e f) :=
  (Ideal.matmul_constant_zero_apply (DotDims.transposedRhs M K N) prec L R (ix2 p e)).trans (trhs_sum L R p e)

end Cert.Lib.MatmulT

end
-- ==== Proof.LibTransposed.lean ====
/-
  Read-at-an-index lemmas, at any extents, for a computation carried out on the TRANSPOSE of a row-major batch:
  a matrix `[a, b]` transposed to `[b, a]` read at `(p, q)` is the matrix at `(q, p)`; over the extended reals the
  maximum of a matrix `[a, b]` along its FIRST axis read at column `c` is the fold of `max`, from the accumulator's
  value, over that column's `a` entries; a single entry `[1, 1]` broadcast to `[a, b]` reads that entry everywhere;
  and a rank-zero array recast as `[1, 1]` reads its one entry.
-/
import Idealize.ShloMosaic.Lib.Pipeline.Value
import Idealize.ShloMosaic.Lib.ValueIdx
import Idealize.ShloMosaic.PureOps.Ideal.Laws

open scoped BigOperators

namespace Cert.Lib.Transposed

open Idealize.ShloMosaic Idealize.ShloMosaic.ValueIdx

variable {α : Type}

/-- The transpose `[b, a]` of an `[a, b]` matrix reads, at `(p, q)`, the matrix at `(q, p)`. -/
theorem transpose_ab_ba_apply {a b : ℕ} (x : (⟨2, ![a, b]⟩ : Shape).Idx → α)
    (h : (⟨2, ![a, b]⟩ : Shape).Transposes [(1 : Fin 2), 0] ⟨2, ![b, a]⟩) (p : Fin b) (q : Fin a) :
    transpose ⟨2, ![b, a]⟩ [(1 : Fin 2), 0] x h (ix2 p q) = x (ix2 q p) :=
  transpose_apply [(1 : Fin 2), 0] x h (ix2 p q) (ix2 q p) (fun d => match d with
    | ⟨0, _⟩ => rfl
    | ⟨1, _⟩ => rfl)

/-- Over the extended reals, the maximum of an `[a, b]` array along its FIRST axis is, at column `c`, the fold of
    `max` from the accumulator's value over that column's `a` entries. -/
theorem multiReduction_maximumf_ab_b_apply {φ : FTy} {a b : ℕ} (src : FVec Ideal ⟨2, ![a, b]⟩ φ) (acc : BitVec φ.bits)
    (h : (⟨2, ![a, b]⟩ : Shape).Reduces [(0 : Fin 2)] ⟨1, ![b]⟩) (hφ : FKind.Formats φ)
    (hacc : acc = FKind.maximumf.neutral φ hφ) (c : Fin b) :
    multiReduction .maximumf [(0 : Fin 2)] ⟨1, ![b]⟩ src acc h hφ hacc (ix1 c)
      = (Finset.univ : Finset (Fin a)).fold max (Ideal.ofBits φ acc) (fun k => src (ix2 k c)) := by
  rw [Ideal.multiReduction_maximumf_single]
  exact congrArg ((Finset.univ : Finset (Fin a)).fold max (Ideal.ofBits φ acc)) (funext fun k => congrArg src (funext fun d => Fin.ext (by
    match d with | ⟨0, _⟩ => rfl | ⟨1, _⟩ => rfl)))

/-- A single entry `[1, 1]` broadcast to `[a, b]` reads that entry at every `(p, c)`. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ =>
    show (0 : ℕ) = if (1 : ℕ) = 1 then 0 else p.val
    rw [if_pos rfl]
  | ⟨1, _⟩ =>
    show (0 : ℕ) = if (1 : ℕ) = 1 then 0 else c.val
    rw [if_pos rfl]

/-- A rank-zero array recast as `[1, 1]` reads, at its one index, the array's one entry. -/
theorem shapeCast_scalar_11_apply (x : (⟨0, ![]⟩ : Shape).Idx → α)
    (h : (⟨0, ![]⟩ : Shape).ShapeCasts ⟨2, ![1, 1]⟩) (u v : Fin 1) :
    shapeCast ⟨2, ![1, 1]⟩ x h (ix2 u v) = x ix0 :=
  shapeCast_apply x h _ _ (by
    have hu : u.val = 0 := by omega
    have hv : v.val = 0 := by omega
    have h0 : ((⟨0, ![]⟩ : Shape).rowMajor ix0).val = 0 := by
      have := ((⟨0, ![]⟩ : Shape).rowMajor ix0).isLt
      have hn : (⟨0, ![]⟩ : Shape).numel = 1 := rfl
      omega
    rw [h0, Shape.rowMajor_val_two]
    show 0 = u.val * 1 + v.val
    rw [hu, hv])

end Cert.Lib.Transposed
-- ==== Proof.LibPlaneSums.lean ====
/-
  Sums over a plane, and a comparison's bit as a float, at any extents, over the extended reals:
  the lane sum of a matrix `[a, b]` along its FIRST axis read at a column as the sum of that column's entries; the host's
  sum of an `[A, C, D]` array over its last two axes read at `a` as the initial value plus the double sum over the plane
  `a`; and the two ways a one-bit comparison result becomes the float 0 or 1 — widened to 32 bits and read as a signed
  integer, or read as an unsigned integer — are one value.
-/
import Idealize.ShloMosaic.Lib.ValueIdx
import Idealize.ShloMosaic.PureOps.Ideal.Laws

open scoped BigOperators

noncomputable section

namespace Cert.Lib.PlaneSums

open Idealize.ShloMosaic Idealize.ShloMosaic.ValueIdx

/-- A one-bit word widened to 32 bits and read as a signed integer is the bit read as a natural number: the two ways a
    comparison's result becomes the float 0 or 1. -/
theorem bit_sitofp_eq_uitofp (w : BitVec 1) :
    FloatOps.sitofp (F := Ideal) .f32 (w.setWidth 32) = FloatOps.uitofp (F := Ideal) .f32 w := by
  show (((w.setWidth 32).toInt : ℝ) : EReal) = ((w.toNat : ℝ) : EReal)
  have h : ∀ w : BitVec 1, (w.setWidth 32).toInt = (w.toNat : ℤ) := by decide
  rw [h w, Int.cast_natCast]

/-- The lane sum of an `[a, b]` array along its FIRST axis is, at column `c`, the sum of that column's `a` entries. -/
theorem multiReduction_add_ab_b_apply {φ : FTy} {a b : ℕ} (src : FVec Ideal ⟨2, ![a, b]⟩ φ) (acc : BitVec φ.bits)
    (h : (⟨2, ![a, b]⟩ : Shape).Reduces [(0 : Fin 2)] ⟨1, ![b]⟩) (hφ : FKind.Formats φ) (hacc : acc = FKind.add.neutral φ hφ)
    (c : Fin b) :
    multiReduction .add [(0 : Fin 2)] ⟨1, ![b]⟩ src acc h hφ hacc (ix1 c) = ∑ k : Fin a, src (ix2 k c) := by
  rw [Ideal.multiReduction_add_single]
  exact Finset.sum_congr rfl fun k _ => congrArg src (funext fun d => Fin.ext (by
    match d with | ⟨0, _⟩ => rfl | ⟨1, _⟩ => rfl))

/-- The host's sum of an `[A, C, D]` array over its last two axes is, at `a`, the initial value plus the double sum over
    the plane `a`. -/
theorem hostReduceAdd_plane_apply {A C D : ℕ} (x : (⟨3, ![A, C, D]⟩ : Shape).Idx → EReal) (init : EReal)
    (h' : (⟨3, ![A, C, D]⟩ : Shape).ReducesTo [(1 : Fin 3), 2] ⟨1, ![A]⟩) (a : Fin A) :
    Ideal.hostReduceAdd h' x init (ix1 a) = init + ∑ p : Fin C, ∑ q : Fin D, x (ix3 a p q) := by
  unfold Ideal.hostReduceAdd
  refine congrArg (init + ·) ?_
  have hdrop : ∀ i : (⟨3, ![A, C, D]⟩ : Shape).Idx, h'.drop i = ix1 a ↔ (i 0).val = a.val := by
    intro i
    constructor
    · intro e
      have e0 : (h'.drop i 0).val = a.val := congrArg (fun j : (⟨1, ![A]⟩ : Shape).Idx => (j 0).val) e
      exact e0
    · intro e0
      funext ax
      apply Fin.ext
      match ax with
      | ⟨0, _⟩ => exact e0
  rw [← Finset.sum_product']
  refine Finset.sum_nbij' (fun i => ((⟨(i 1).val, (i 1).isLt⟩ : Fin C), (⟨(i 2).val, (i 2).isLt⟩ : Fin D)))
    (fun pq => ix3 a pq.1 pq.2) (fun _ _ => Finset.mem_product.mpr ⟨Finset.mem_univ _, Finset.mem_univ _⟩) ?_ ?_ ?_ ?_
  · intro pq _
    exact Finset.mem_filter.mpr ⟨Finset.mem_univ _, (hdrop _).mpr rfl⟩
  · intro i hi
    have e0 := (hdrop i).mp (Finset.mem_filter.mp hi).2
    funext ax
    apply Fin.ext
    match ax with
    | ⟨0, _⟩ => show a.val = (i 0).val; exact e0.symm
    | ⟨1, _⟩ => rfl
    | ⟨2, _⟩ => rfl
  · intro pq _
    rfl
  · intro i hi
    have e0 := (hdrop i).mp (Finset.mem_filter.mp hi).2
    refine congrArg x ?_
    funext ax
    apply Fin.ext
    match ax with
    | ⟨0, _⟩ => show (i 0).val = a.val; exact e0
    | ⟨1, _⟩ => rfl
    | ⟨2, _⟩ => rfl

end Cert.Lib.PlaneSums

end
-- ==== Proof.PayScore.lean ====
/-
  One grid point of the attention kernel, read at coordinates over the extended reals.

  From the query block x0[0, q, f] (2048 x 1024) and a key block x1[0, kk, f] (128 x 1024): the scaled scores
  tscore q kk = (Σ_f x0[q, f] · x1[kk, f]) · 2^-5; each key column kk is normalised over the queries: its
  maximum tmax kk (from -inf), the exponentials tex q kk of the scores less it, their sum tden kk, and the
  quotients tattn q kk.  The kernel forms them as a matrix product with the right operand contracted on its
  last axis, a product with the broadcast scale, a maximum and a sum along the first axis, each cast to a row
  and broadcast back over the queries.
-/
import proofs.«136138_j13357348290569_2_alg».proof.Proof.Gen.KernelIdeal.Skeleton
import proofs.«136138_j13357348290569_2_alg».proof.Proof.Spec
import proofs.«136138_j13357348290569_2_alg».proof.Proof.LibMatmulT
import proofs.«136138_j13357348290569_2_alg».proof.Proof.LibTransposed
import proofs.«136138_j13357348290569_2_alg».proof.Proof.LibPlaneSums
import Idealize.ShloMosaic.Lib.ValueLayout
import Idealize.ShloMosaic.Lib.ValueIdx

open scoped BigOperators

noncomputable section

namespace Cert.KernelIdeal.HandValue

open Cert.KernelIdeal Cert.KernelIdeal.Gen Idealize.ShloMosaic Idealize.ShloMosaic.ValueIdx

variable (x0 : Vec Ideal S1x2048x1024 .f32) (x1 : Vec Ideal S1x128x1024 .f32) (x2 : Vec Ideal S1x128x1024 .bf16)

/-! ## The tile's mathematics -/

/-- The scaled score of query q against key kk of the block. -/
def tscore (q : Fin 2048) (kk : Fin 128) : EReal :=
  (∑ f : Fin 1024, x0 (ix3 (0 : Fin 1) q f) * x1 (ix3 (0 : Fin 1) kk f)) * Cert.Spec.scale

/-- The largest score in key column kk, over all queries (from -inf). -/
def tmax (kk : Fin 128) : EReal :=
  (Finset.univ : Finset (Fin 2048)).fold max (Ideal.ofBits .f32 0xFF800000#32) (fun q => tscore x0 x1 q kk)

/-- The exponential of a score less its column's maximum. -/
def tex (q : Fin 2048) (kk : Fin 128) : EReal := Ideal.exp (tscore x0 x1 q kk - tmax x0 x1 kk)

/-- The column's normaliser. -/
def tden (kk : Fin 128) : EReal := ∑ q : Fin 2048, tex x0 x1 q kk

/-- The weight of key kk for query q. -/
def tattn (q : Fin 2048) (kk : Fin 128) : EReal := Ideal.div (tex x0 x1 q kk) (tden x0 x1 kk)

/-! ## The kernel's stages -/

/-- The scaled scores as the kernel forms them. -/
def kS : FVec Ideal S2048x128 .f32 :=
  mulf (matmul dot_S2048x1024_S128x1024_S2048x128_1_1_0_0_n_n (some .fp32)
      (shapeCast S2048x1024 x0 shapeCasts_S1x2048x1024_S2048x1024 : FVec Ideal S2048x1024 .f32)
      (shapeCast S128x1024 x1 shapeCasts_S1x128x1024_S128x1024 : FVec Ideal S128x1024 .f32)
      (constant S2048x128 .f32 0x00000000#32))
    (broadcast S2048x128 (Scalar.ofBits .f32 0x3D000000#32))

theorem kS_at (q : Fin 2048) (kk : Fin 128) : kS x0 x1 (ix2 q kk) = tscore x0 x1 q kk := by
  have hd : dot_S2048x1024_S128x1024_S2048x128_1_1_0_0_n_n = DotDims.transposedRhs 2048 1024 128 := rfl
  unfold kS tscore
  rw [mulf_apply, broadcast_apply, hd, Cert.Lib.MatmulT.matmul_trhs_zero_apply]
  refine congrArg₂ (· * ·) (Finset.sum_congr rfl fun f _ => ?_) rfl
  rw [shapeCast_1ab_ab_apply, shapeCast_1ab_ab_apply]

/-- The columns' maxima. -/
def kM : FVec Ideal S128 .f32 :=
  multiReduction .maximumf [0] S128 (kS x0 x1) 0xFF800000#32 reduces_S2048x128_S128 (.inl rfl) rfl

theorem kM_at (kk : Fin 128) : kM x0 x1 (ix1 kk) = tmax x0 x1 kk := by
  unfold kM tmax
  refine (Cert.Lib.Transposed.multiReduction_maximumf_ab_b_apply (kS x0 x1) 0xFF800000#32 reduces_S2048x128_S128
    (.inl rfl) rfl kk).trans ?_
  exact congrArg ((Finset.univ : Finset (Fin 2048)).fold max (Ideal.ofBits .f32 0xFF800000#32))
    (funext fun q => kS_at x0 x1 q kk)

/-- The exponentials. -/
def kE : FVec Ideal S2048x128 .f32 :=
  exp (subf (kS x0 x1)
    (broadcastTo S2048x128 (shapeCast S1x128 (kM x0 x1) shapeCasts_S128_S1x128) broadcasts_S1x128_S2048x128))

theorem kE_at (q : Fin 2048) (kk : Fin 128) : kE x0 x1 (ix2 q kk) = tex x0 x1 q kk := by
  unfold kE tex
  show Ideal.exp (kS x0 x1 (ix2 q kk)
    - broadcastTo S2048x128 (shapeCast S1x128 (kM x0 x1) shapeCasts_S128_S1x128) broadcasts_S1x128_S2048x128 (ix2 q kk)) = _
  rw [broadcastTo_1b_ab_apply, shapeCast_a_1a_apply, kS_at, kM_at]

/-- The columns' sums of exponentials. -/
def kD : FVec Ideal S128 .f32 :=
  multiReduction .add [0] S128 (kE x0 x1) 0x00000000#32 reduces_S2048x128_S128 (.inl rfl) rfl

theorem kD_at (kk : Fin 128) : kD x0 x1 (ix1 kk) = tden x0 x1 kk := by
  unfold kD tden
  refine (Cert.Lib.PlaneSums.multiReduction_add_ab_b_apply (kE x0 x1) 0x00000000#32 reduces_S2048x128_S128
    (.inl rfl) rfl kk).trans ?_
  exact Finset.sum_congr rfl fun q _ => kE_at x0 x1 q kk

/-- The weights. -/
def kA : FVec Ideal S2048x128 .f32 :=
  divf (kE x0 x1)
    (broadcastTo S2048x128 (shapeCast S1x128 (kD x0 x1) shapeCasts_S128_S1x128) broadcasts_S1x128_S2048x128)

theorem kA_at (q : Fin 2048) (kk : Fin 128) : kA x0 x1 (ix2 q kk) = tattn x0 x1 q kk := by
  unfold kA tattn
  rw [divf_apply, broadcastTo_1b_ab_apply, shapeCast_a_1a_apply, kE_at, kD_at]

end Cert.KernelIdeal.HandValue

end
-- ==== Proof.PayTile.lean ====
/-
  A grid point's block sums are the specification's block contributions: when the query block holds the
  query columns of a table P of projected rows for batch b, the key block the key columns of the rows of
  block kt, and the value block their value columns, the tile's scores, column maxima, exponentials,
  normalisers and weights are the specification's at the keys kt·128 + kk, term by term.
-/
import proofs.«136138_j13357348290569_2_alg».proof.Proof.PayScore
import proofs.«136138_j13357348290569_2_alg».proof.Proof.SpecP

open scoped BigOperators

noncomputable section

namespace Cert.KernelIdeal.HandValue

open Cert.KernelIdeal Cert.KernelIdeal.Gen Idealize.ShloMosaic Idealize.ShloMosaic.ValueIdx

variable (x0 : Vec Ideal S1x2048x1024 .f32) (x1 : Vec Ideal S1x128x1024 .f32) (x2 : Vec Ideal S1x128x1024 .bf16)

section Tile

variable (P : Fin 4 → Fin 2048 → Fin 3072 → EReal) (b : Fin 4) (kt : Fin 16)

theorem tscore_eq
    (hx0 : ∀ q f, x0 (ix3 (0 : Fin 1) q f) = P b q (Cert.Spec.qcol f))
    (hx1 : ∀ kk f, x1 (ix3 (0 : Fin 1) kk f) = P b (Cert.Spec.key kt kk) (Cert.Spec.kcol f))
    (q : Fin 2048) (kk : Fin 128) :
    tscore x0 x1 q kk = Cert.SpecP.score P b q (Cert.Spec.key kt kk) := by
  unfold tscore Cert.SpecP.score
  refine congrArg (· * Cert.Spec.scale) (Finset.sum_congr rfl fun f _ => ?_)
  rw [hx0, hx1]

theorem tmax_eq
    (hx0 : ∀ q f, x0 (ix3 (0 : Fin 1) q f) = P b q (Cert.Spec.qcol f))
    (hx1 : ∀ kk f, x1 (ix3 (0 : Fin 1) kk f) = P b (Cert.Spec.key kt kk) (Cert.Spec.kcol f))
    (kk : Fin 128) :
    tmax x0 x1 kk = Cert.SpecP.colmax P b (Cert.Spec.key kt kk) := by
  unfold tmax Cert.SpecP.colmax
  exact congrArg ((Finset.univ : Finset (Fin 2048)).fold max (Ideal.ofBits .f32 0xFF800000#32))
    (funext fun q => tscore_eq x0 x1 P b kt hx0 hx1 q kk)

theorem tex_eq
    (hx0 : ∀ q f, x0 (ix3 (0 : Fin 1) q f) = P b q (Cert.Spec.qcol f))
    (hx1 : ∀ kk f, x1 (ix3 (0 : Fin 1) kk f) = P b (Cert.Spec.key kt kk) (Cert.Spec.kcol f))
    (q : Fin 2048) (kk : Fin 128) :
    tex x0 x1 q kk = Cert.SpecP.ex P b q (Cert.Spec.key kt kk) := by
  unfold tex Cert.SpecP.ex
  rw [tscore_eq x0 x1 P b kt hx0 hx1, tmax_eq x0 x1 P b kt hx0 hx1]

theorem tden_eq
    (hx0 : ∀ q f, x0 (ix3 (0 : Fin 1) q f) = P b q (Cert.Spec.qcol f))
    (hx1 : ∀ kk f, x1 (ix3 (0 : Fin 1) kk f) = P b (Cert.Spec.key kt kk) (Cert.Spec.kcol f))
    (kk : Fin 128) :
    tden x0 x1 kk = Cert.SpecP.den P b (Cert.Spec.key kt kk) := by
  unfold tden Cert.SpecP.den
  exact Finset.sum_congr rfl fun q _ => tex_eq x0 x1 P b kt hx0 hx1 q kk

theorem tattn_eq
    (hx0 : ∀ q f, x0 (ix3 (0 : Fin 1) q f) = P b q (Cert.Spec.qcol f))
    (hx1 : ∀ kk f, x1 (ix3 (0 : Fin 1) kk f) = P b (Cert.Spec.key kt kk) (Cert.Spec.kcol f))
    (q : Fin 2048) (kk : Fin 128) :
    tattn x0 x1 q kk = Cert.SpecP.attn P b q (Cert.Spec.key kt kk) := by
  unfold tattn Cert.SpecP.attn
  rw [tex_eq x0 x1 P b kt hx0 hx1, tden_eq x0 x1 P b kt hx0 hx1]

/-- The tile's sum over its 128 keys is the specification's contribution of block kt. -/
theorem tile_contrib
    (hx0 : ∀ q f, x0 (ix3 (0 : Fin 1) q f) = P b q (Cert.Spec.qcol f))
    (hx1 : ∀ kk f, x1 (ix3 (0 : Fin 1) kk f) = P b (Cert.Spec.key kt kk) (Cert.Spec.kcol f))
    (hx2 : ∀ kk d, x2 (ix3 (0 : Fin 1) kk d) = P b (Cert.Spec.key kt kk) (Cert.Spec.vcol d))
    (q : Fin 2048) (d : Fin 1024) :
    ∑ kk : Fin 128, tattn x0 x1 q kk * x2 (ix3 (0 : Fin 1) kk d) = Cert.SpecP.contrib P b kt q d := by
  unfold Cert.SpecP.contrib
  refine Finset.sum_congr rfl fun kk _ => ?_
  rw [tattn_eq x0 x1 P b kt hx0 hx1, hx2]

end Tile

end Cert.KernelIdeal.HandValue

end
-- ==== Proof.Pay1.lean ====
/-
  What one grid point of the attention kernel leaves in the output block, at coordinates: the second matrix
  product sums, over the block's 128 keys, weight(q, kk) · value(kk, d); the point with kt = 0 stores that,
  the others store what the block held plus that.
-/
import proofs.«136138_j13357348290569_2_alg».proof.Proof.Region1
import proofs.«136138_j13357348290569_2_alg».proof.Proof.PayTile
import proofs.«136138_j13357348290569_2_alg».proof.Proof.LibMatmul

open scoped BigOperators

noncomputable section

namespace Cert.KernelIdeal.HandValue

open Cert.KernelIdeal Cert.KernelIdeal.Gen Idealize.ShloMosaic Idealize.ShloMosaic.ValueIdx

variable (x0 : Vec Ideal S1x2048x1024 .f32) (x1 : Vec Ideal S1x128x1024 .f32) (x2 : Vec Ideal S1x128x1024 .bf16)

/-- The payload is the second product of the weights (rounded to the narrower format, the identity on the
    extended reals) with the value block. -/
theorem pay1_eq :
    k1_pay1 (F := Ideal) x0 x1 x2
      = matmul dot_S2048x128_S128x1024_S2048x1024_1_0_0_1_n_n none
          (truncf .bf16 (kA x0 x1) bitsLt_bf16_f32 : FVec Ideal S2048x128 .bf16)
          (shapeCast S128x1024 x2 shapeCasts_S1x128x1024_S128x1024 : FVec Ideal S128x1024 .bf16)
          (constant S2048x1024 .f32 0x00000000#32) := rfl

/-- The block's contribution at (q, d). -/
theorem pay1_at (q : Fin 2048) (d : Fin 1024) :
    k1_pay1 (F := Ideal) x0 x1 x2 (ix2 q d) = ∑ kk : Fin 128, tattn x0 x1 q kk * x2 (ix3 (0 : Fin 1) kk d) := by
  have hd : dot_S2048x128_S128x1024_S2048x1024_1_0_0_1_n_n = DotDims.plain 2048 128 1024 := rfl
  rw [pay1_eq, hd, Cert.Lib.Matmul.matmul_plain_zero_apply]
  refine Finset.sum_congr rfl fun kk _ => ?_
  rw [truncf_apply, kA_at, shapeCast_1ab_ab_apply]

/-- The three offsets of a whole-block access are zero. -/
theorem hz3 : (![0, 0, 0] : Fin 3 → Nat) = fun _ => 0 := funext fun a => by fin_cases a <;> rfl

/-- At kt = 0 the block ends at the contribution. -/
theorem outA_at (q : Fin 2048) (d : Fin 1024) :
    Cert.KernelIdeal.Hand.outA (F := Ideal) x0 x1 x2 (ix3 (0 : Fin 1) q d)
      = ∑ kk : Fin 128, tattn x0 x1 q kk * x2 (ix3 (0 : Fin 1) kk d) := by
  unfold Cert.KernelIdeal.Hand.outA
  rw [View.canon_unit_zero hz3]
  simp only [View.ld_unit_zero (S := S1x2048x1024) hz3, View.ld_unit_zero (S := S1x128x1024) hz3]
  show shapeCast S1x2048x1024 (k1_pay1 (F := Ideal) x0 x1 x2) shapeCasts_S2048x1024_S1x2048x1024 (ix3 (0 : Fin 1) q d) = _
  rw [shapeCast_ab_1ab_apply]
  exact pay1_at x0 x1 x2 q d

/-- At kt > 0 the block ends at what it held plus the contribution. -/
theorem outB_at (xo : Vec Ideal S1x2048x1024 .f32) (q : Fin 2048) (d : Fin 1024) :
    Cert.KernelIdeal.Hand.outB (F := Ideal) x0 x1 x2 xo (ix3 (0 : Fin 1) q d)
      = xo (ix3 (0 : Fin 1) q d) + ∑ kk : Fin 128, tattn x0 x1 q kk * x2 (ix3 (0 : Fin 1) kk d) := by
  unfold Cert.KernelIdeal.Hand.outB
  rw [View.canon_unit_zero hz3]
  simp only [View.ld_unit_zero (S := S1x2048x1024) hz3, View.ld_unit_zero (S := S1x128x1024) hz3]
  show shapeCast S1x2048x1024
      (addf (shapeCast S2048x1024 xo shapeCasts_S1x2048x1024_S2048x1024 : FVec Ideal S2048x1024 .f32)
        (k1_pay1 (F := Ideal) x0 x1 x2))
      shapeCasts_S2048x1024_S1x2048x1024 (ix3 (0 : Fin 1) q d) = _
  rw [shapeCast_ab_1ab_apply, addf_apply, shapeCast_1ab_ab_apply, pay1_at]

end Cert.KernelIdeal.HandValue

end
-- ==== Proof.Value1.lean ====
/-
  Region 1 (the attention kernel) as a whole: when the query/key array holds the query and key columns of a table
  P of projected rows and the value array its value columns, the output array ends holding, at every index
  (b, q, d), the sum over the 16 key blocks of the block's contribution Σ_kk weight(b, q, key) · value(b, key, d).
-/
import proofs.«136138_j13357348290569_2_alg».proof.Proof.Value1Acc
import proofs.«136138_j13357348290569_2_alg».proof.Proof.Pay1

set_option maxRecDepth 16384

open scoped BigOperators

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem

/-- The output array after all 64 points, at the ideal instance, for any region-entry contents V that hold P. -/
theorem final1 (V : (c : Dev nD) → (b : Ref sig .tc) → Buf (Elt Ideal) ((c : Thread nD τ).loc b)) (c : Dev nD)
    (P : Fin 4 → Fin 2048 → Fin 3072 → EReal)
    (hq : ∀ (b : Fin 4) (s : Fin 2048) (f : Fin 1024), V c main_v5 (ix3 b s (⟨f.val, by omega⟩ : Fin 2048)) = P b s (Cert.Spec.qcol f))
    (hk : ∀ (b : Fin 4) (s : Fin 2048) (f : Fin 1024), V c main_v5 (ix3 b s (⟨1024 + f.val, by omega⟩ : Fin 2048)) = P b s (Cert.Spec.kcol f))
    (hv : ∀ (b : Fin 4) (s : Fin 2048) (f : Fin 1024), V c main_v6 (ix3 b s f) = P b s (Cert.Spec.vcol f))
    (b : Fin 4) (q : Fin 2048) (d : Fin 1024) :
    (Cert.KernelIdeal.Hand.dat1 (F := Ideal) V c).arrAt 3 cfg1.N (ix3 b q d) = Cert.SpecP.Gat P b q d :=
  final1_of V c P (fun x0 x1 x2 q d => ∑ kk : Fin 128, tattn x0 x1 q kk * x2 (ix3 (0 : Fin 1) kk d))
    (fun x0 x1 x2 q d => outA_at x0 x1 x2 q d)
    (fun x0 x1 x2 xo q d => outB_at x0 x1 x2 xo q d)
    (fun x0 x1 x2 b kt hx0 hx1 hx2 q d => tile_contrib x0 x1 x2 P b kt hx0 hx1 hx2 q d)
    hq hk hv b q d

end Cert.KernelIdeal.HandValue

end
-- ==== Proof.Glue.lean ====
/-
  The two kernels joined: what the attention kernel reads at its entry is the projection of the activations by the
  weights — its first array holds the query and key columns, its second the value columns —, so what it leaves in the
  result array is the specification's function of the two argument arrays.
-/
import proofs.«136138_j13357348290569_2_alg».proof.Proof.Host
import proofs.«136138_j13357348290569_2_alg».proof.Proof.Value0
import proofs.«136138_j13357348290569_2_alg».proof.Proof.Value1
import proofs.«136138_j13357348290569_2_alg».proof.Proof.SpecP

set_option maxRecDepth 16384

open scoped BigOperators

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ) (ρ : Dev nD → PrngReg)

/-- The two argument arrays as launched. -/
abbrev xin (c : Dev nD) : Cert.Spec.SX.Idx → EReal := m ((c : Thread nD τ).loc main_arg0)
abbrev win (c : Dev nD) : Cert.Spec.SW.Idx → EReal := m ((c : Thread nD τ).loc main_arg1)

/-- Row b·2048 + s, as an index of the 8192 flattened rows. -/
def flatRow (b : Fin 4) (s : Fin 2048) : Fin 8192 := ⟨b.val * 2048 + s.val, by omega⟩

/-- The attention kernel's first array holds the projection's first 2048 columns. -/
theorem entry_qk (c : Dev nD) (b : Fin 4) (s : Fin 2048) (e : Fin 2048) :
    (V3 m ρ c main_v5 : S4x2048x2048.Idx → EReal) (ix3 b s e) = Cert.Spec.proj (xin m c) (win m c) b s (⟨e.val, by omega⟩ : Fin 3072) := by
  rw [V3_v5_at m ρ c b s e (flatRow b s) rfl]
  rw [show (W2 m ρ c (Proc.devRef .tc main_v4_0) : S8192x2048.Idx → EReal) = (dat0 (F := Ideal) (V1 m ρ) c).arrAt 3 cfg0.N from W2_arr m ρ c 3]
  refine Eq.trans (final0_3 (V1 m ρ) c (flatRow b s) e) ?_
  show (∑ d : Fin 1024, L0 (V1 m ρ) c (ix2 (flatRow b s) d) * R1 (V1 m ρ) c (ix2 d e) : EReal)
    = ∑ d : Fin 1024, xin m c (ix3 b s d) * win m c (ix2 d (⟨e.val, by omega⟩ : Fin 3072))
  exact Finset.sum_congr rfl fun d _ => by
    rw [show L0 (V1 m ρ) c (ix2 (flatRow b s) d) = xin m c (ix3 b s d) from V1_v0_at m ρ c b s d (flatRow b s) rfl,
      show R1 (V1 m ρ) c (ix2 d e) = win m c (ix2 d (⟨e.val, by omega⟩ : Fin 3072)) from V1_v1_at m ρ c d e]

/-- Its second array holds the projection's last 1024 columns. -/
theorem entry_v (c : Dev nD) (b : Fin 4) (s : Fin 2048) (e : Fin 1024) :
    (V3 m ρ c main_v6 : S4x2048x1024.Idx → EReal) (ix3 b s e) = Cert.Spec.proj (xin m c) (win m c) b s (Cert.Spec.vcol e) := by
  rw [V3_v6_at m ρ c b s e (flatRow b s) rfl]
  rw [show (W2 m ρ c (Proc.devRef .tc main_v4_1) : S8192x1024.Idx → EReal) = (dat0 (F := Ideal) (V1 m ρ) c).arrAt 4 cfg0.N from W2_arr m ρ c 4]
  refine Eq.trans (final0_4 (V1 m ρ) c (flatRow b s) e) ?_
  show (∑ d : Fin 1024, L0 (V1 m ρ) c (ix2 (flatRow b s) d) * R3 (V1 m ρ) c (ix2 d e) : EReal)
    = ∑ d : Fin 1024, xin m c (ix3 b s d) * win m c (ix2 d (Cert.Spec.vcol e))
  exact Finset.sum_congr rfl fun d _ => by
    rw [show L0 (V1 m ρ) c (ix2 (flatRow b s) d) = xin m c (ix3 b s d) from V1_v0_at m ρ c b s d (flatRow b s) rfl,
      show R3 (V1 m ρ) c (ix2 d e) = win m c (ix2 d (Cert.Spec.vcol e)) from V1_v3_at m ρ c d e]

/-- What the attention kernel's write-backs leave in the result array is the specification's function of the arguments. -/
theorem kernel_is_G (c : Dev nD) :
    ((dat1 (F := Ideal) (V3 m ρ) c).arrAt 3 cfg1.N : S4x2048x1024.Idx → EReal) = Cert.Spec.G (xin m c) (win m c) := by
  funext i
  obtain ⟨b, q, d, rfl⟩ : ∃ (b : Fin 4) (q : Fin 2048) (d : Fin 1024), i = ix3 b q d := ⟨i 0, i 1, i 2, eq_ix3 i⟩
  rw [Cert.Spec.G_ix3, ← Cert.SpecP.Gat_proj]
  exact final1 (V3 m ρ) c (Cert.Spec.proj (xin m c) (win m c))
    (fun b s f => entry_qk m ρ c b s ⟨f.val, by omega⟩)
    (fun b s f => entry_qk m ρ c b s ⟨1024 + f.val, by omega⟩)
    (fun b s f => entry_v m ρ c b s f) b q d

end Cert.KernelIdeal.HandValue

end
-- ==== Proof.RefConsts.lean ====
/-
  The two float words the reference's score scaling meets: the divisor 32 and the factor 2^-5 = 1/32,
  as the extended reals they denote, and the quotient by the first as the product with the second.
-/
import Idealize.ShloMosaic.PureOps.Ideal.Laws

noncomputable section

namespace Cert.ReferenceIdeal.RefValue

open Idealize.ShloMosaic

/-- The word 0x42000000 denotes the real 32. -/
theorem ofBits_32 : Ideal.ofBits .f32 0x42000000#32 = ((32 : ℝ) : EReal) := by
  simp [Ideal.ofBits, Ideal.ieee, -EReal.coe_mul]; norm_num

/-- The word 0x3D000000 denotes the real 1/32. -/
theorem ofBits_inv32 : Ideal.ofBits .f32 0x3D000000#32 = (((1 : ℝ) / 32 : ℝ) : EReal) := by
  simp [Ideal.ofBits, Ideal.ieee, -EReal.coe_mul]; norm_num

/-- Dividing by 32 is multiplying by 1/32, at every extended real. -/
theorem div_32 (a : EReal) :
    Ideal.div a (Ideal.ofBits .f32 0x42000000#32) = a * Ideal.ofBits .f32 0x3D000000#32 := by
  rw [ofBits_32, ofBits_inv32]
  exact Ideal.div_coe (by norm_num) a

end Cert.ReferenceIdeal.RefValue

end
-- ==== Proof.RefScores.lean ====
/-
  The reference's first seven values read at coordinates: the projection of every row of the activations
  by the weights, its three column slices (queries, keys, values), the inner products of query rows with
  key rows, and their quotient by 32, which is the specification's scaled score.
-/
import proofs.«136138_j13357348290569_2_alg».proof.Proof.Gen.ReferenceIdeal.Read
import proofs.«136138_j13357348290569_2_alg».proof.Proof.Spec
import proofs.«136138_j13357348290569_2_alg».proof.Proof.RefConsts

open scoped BigOperators

noncomputable section

namespace Cert.ReferenceIdeal.RefValue

open Cert.ReferenceIdeal Cert.ReferenceIdeal.Gen Cert.ReferenceIdeal.Read Idealize.ShloMosaic Idealize.ShloMosaic.ValueIdx Cert.Spec

variable (x : (⟨S4x2048x1024, .f32⟩ : BufTy).Contents (Elt Ideal)) (W : (⟨S1024x3072, .f32⟩ : BufTy).Contents (Elt Ideal))

/-- The first product at (b, s, e) is the projection of row (b, s) on column e. -/
theorem v0_at (b : Fin 4) (s : Fin 2048) (e : Fin 3072) :
    val_main_v0 (F := Ideal) x W (ix3 b s e) = proj x W b s e := by
  rw [val_main_v0_apply]
  unfold proj
  refine Finset.sum_congr rfl fun d _ => ?_
  have el : lidx_main_v0 (ix3 b s e) d = ix3 b s d := funext fun a => by
    match a with
    | ⟨0, _⟩ => rfl
    | ⟨1, _⟩ => rfl
    | ⟨2, _⟩ => rfl
  have er : ridx_main_v0 (ix3 b s e) d = ix2 d e := funext fun a => by
    match a with
    | ⟨0, _⟩ => rfl
    | ⟨1, _⟩ => rfl
  rw [el, er]

/-- The first slice holds the query columns. -/
theorem v1_at (b : Fin 4) (s : Fin 2048) (d : Fin 1024) :
    val_main_v1 (F := Ideal) x W (ix3 b s d) = proj x W b s (qcol d) := by
  rw [val_main_v1_apply]
  have e : idx_main_v1 (ix3 b s d) = ix3 b s (qcol d) := funext fun a => by
    match a with
    | ⟨0, _⟩ => rfl
    | ⟨1, _⟩ => rfl
    | ⟨2, _⟩ => rfl
  rw [e]
  exact v0_at x W b s (qcol d)

/-- The second slice holds the key columns. -/
theorem v2_at (b : Fin 4) (s : Fin 2048) (d : Fin 1024) :
    val_main_v2 (F := Ideal) x W (ix3 b s d) = proj x W b s (kcol d) := by
  rw [val_main_v2_apply]
  have e : idx_main_v2 (ix3 b s d) = ix3 b s (kcol d) := funext fun a => by
    match a with
    | ⟨0, _⟩ => rfl
    | ⟨1, _⟩ => rfl
    | ⟨2, _⟩ => rfl
  rw [e]
  exact v0_at x W b s (kcol d)

/-- The third slice holds the value columns. -/
theorem v3_at (b : Fin 4) (s : Fin 2048) (d : Fin 1024) :
    val_main_v3 (F := Ideal) x W (ix3 b s d) = proj x W b s (vcol d) := by
  rw [val_main_v3_apply]
  have e : idx_main_v3 (ix3 b s d) = ix3 b s (vcol d) := funext fun a => by
    match a with
    | ⟨0, _⟩ => rfl
    | ⟨1, _⟩ => rfl
    | ⟨2, _⟩ => rfl
  rw [e]
  exact v0_at x W b s (vcol d)

/-- The second product at (b, q, k) is the inner product of query row q with key row k. -/
theorem v4_at (b : Fin 4) (q k : Fin 2048) :
    val_main_v4 (F := Ideal) x W (ix3 b q k)
      = ∑ d : Fin 1024, proj x W b q (qcol d) * proj x W b k (kcol d) := by
  rw [val_main_v4_apply]
  refine Finset.sum_congr rfl fun d _ => ?_
  have el : lidx_main_v4 (ix3 b q k) d = ix3 b q d := funext fun a => by
    match a with
    | ⟨0, _⟩ => rfl
    | ⟨1, _⟩ => rfl
    | ⟨2, _⟩ => rfl
  have er : ridx_main_v4 (ix3 b q k) d = ix3 b k d := funext fun a => by
    match a with
    | ⟨0, _⟩ => rfl
    | ⟨1, _⟩ => rfl
    | ⟨2, _⟩ => rfl
  rw [el, er, v1_at, v2_at]

/-- The broadcast divisor is the word of 32 everywhere. -/
theorem v5_at (i : S4x2048x2048.Idx) :
    val_main_v5 (F := Ideal) i = Ideal.ofBits .f32 0x42000000#32 := by
  rw [val_main_v5_apply, val_main_cst_apply]
  rfl

/-- The quotient by 32 is the scaled score. -/
theorem v6_at (b : Fin 4) (q k : Fin 2048) :
    val_main_v6 (F := Ideal) x W (ix3 b q k) = score x W b q k := by
  rw [val_main_v6_apply, v4_at, v5_at]
  unfold score scale
  exact div_32 _

end Cert.ReferenceIdeal.RefValue

end
-- ==== Proof.LibFoldMax.lean ====
/-
  Folding a maximum from an initial value already dominates that value: over any linear order and any
  finite index set, `max a (fold max a f) = fold max a f`. A second maximum with the initial value after
  a max-reduce started from it therefore changes nothing.
-/
import Mathlib.Data.Finset.Fold
import Mathlib.Order.Lattice

namespace Cert.Lib.FoldMax

/-- The initial value is below the fold of `max` started from it. -/
theorem le_fold_max_init {ι α : Type*} [LinearOrder α] (s : Finset ι) (a : α) (f : ι → α) :
    a ≤ s.fold max a f :=
  (Finset.le_fold_max a).mpr (Or.inl le_rfl)

/-- A further `max` with the initial value leaves a fold of `max` started from it unchanged. -/
theorem max_init_fold_max {ι α : Type*} [LinearOrder α] (s : Finset ι) (a : α) (f : ι → α) :
    max a (s.fold max a f) = s.fold max a f :=
  max_eq_right (le_fold_max_init s a f)

end Cert.Lib.FoldMax
-- ==== Proof.RefSoftmax.lean ====
/-
  The reference's normalisation over the QUERY axis, read at coordinates: the maximum of every key column of
  the scores (a reduction from -inf over the queries, then a maximum with -inf, which changes nothing), the
  exponentials of the scores less their column's maximum, the column sums of those (from zero), and the
  quotients.
-/
import proofs.«136138_j13357348290569_2_alg».proof.Proof.RefScores
import proofs.«136138_j13357348290569_2_alg».proof.Proof.LibFoldMax

open scoped BigOperators

noncomputable section

namespace Cert.ReferenceIdeal.RefValue

open Cert.ReferenceIdeal Cert.ReferenceIdeal.Gen Cert.ReferenceIdeal.Read Idealize.ShloMosaic Idealize.ShloMosaic.ValueIdx Cert.Spec

variable (x : (⟨S4x2048x1024, .f32⟩ : BufTy).Contents (Elt Ideal)) (W : (⟨S1024x3072, .f32⟩ : BufTy).Contents (Elt Ideal))

/-- The reduction over the query axis at (b, k) is the fold of max from the initial word over the scores of column k. -/
theorem v7_at (b : Fin 4) (k : Fin 2048) :
    val_main_v7 (F := Ideal) x W (ix2 b k)
      = (Finset.univ : Finset (Fin 2048)).fold max (Ideal.ofBits .f32 0xFF800000#32) (fun q => score x W b q k) := by
  unfold val_main_v7
  have h : S4x2048x2048.Reduces [(1 : Fin 3)] S4x2048 := by decide
  rw [Host.reduce_eq_fold_single (FloatOps.maximumf (F := Ideal) (φ := .f32)) (val_main_v6 (F := Ideal) x W)
    (val_main_cst_0 (F := Ideal)) reducesTo_S4x2048x2048_S4x2048_d1 h h_S_ (ix2 b k)]
  exact congrArg ((Finset.univ : Finset (Fin 2048)).fold max (Ideal.ofBits .f32 0xFF800000#32)) (funext fun q =>
    (congrArg (val_main_v6 (F := Ideal) x W) (funext fun d => Fin.ext (by
      match d with
      | ⟨0, _⟩ => rfl
      | ⟨1, _⟩ => rfl
      | ⟨2, _⟩ => rfl))).trans (v6_at x W b q k))

/-- The broadcast initial value is the word of -inf everywhere. -/
theorem v8_at (i : S4x2048.Idx) :
    val_main_v8 (F := Ideal) i = Ideal.ofBits .f32 0xFF800000#32 := by
  rw [val_main_v8_apply, val_main_cst_1_apply]
  rfl

/-- A further maximum with the initial word leaves the column's maximum as it is. -/
theorem v9_at (b : Fin 4) (k : Fin 2048) :
    val_main_v9 (F := Ideal) x W (ix2 b k) = colmax x W b k := by
  rw [val_main_v9_apply, v8_at, v7_at]
  unfold colmax
  exact Cert.Lib.FoldMax.max_init_fold_max _ _ _

/-- The column's maximum with a unit query axis inserted. -/
theorem v10_at (b : Fin 4) (o : Fin 1) (k : Fin 2048) :
    val_main_v10 (F := Ideal) x W (ix3 b o k) = colmax x W b k := by
  rw [val_main_v10_apply]
  have e : idx_main_v10 (ix3 b o k) = ix2 b k := funext fun a => by
    match a with
    | ⟨0, _⟩ => rfl
    | ⟨1, _⟩ => rfl
  rw [e]
  exact v9_at x W b k

/-- The column's maximum repeated down the queries. -/
theorem v11_at (b : Fin 4) (q k : Fin 2048) :
    val_main_v11 (F := Ideal) x W (ix3 b q k) = colmax x W b k := by
  rw [val_main_v11_apply]
  have e : idx_main_v11 (ix3 b q k) = ix3 b (⟨0, Nat.one_pos⟩ : Fin 1) k := funext fun a => by
    match a with
    | ⟨0, _⟩ => rfl
    | ⟨1, _⟩ => rfl
    | ⟨2, _⟩ => rfl
  rw [e]
  exact v10_at x W b _ k

/-- The exponential of a score less its column's maximum. -/
theorem v13_at (b : Fin 4) (q k : Fin 2048) :
    val_main_v13 (F := Ideal) x W (ix3 b q k) = ex x W b q k := by
  rw [val_main_v13_apply, val_main_v12_apply, v6_at, v11_at]
  rfl

/-- The column's sum of exponentials, from zero, over the queries. -/
theorem v14_at (b : Fin 4) (k : Fin 2048) :
    val_main_v14 (F := Ideal) x W (ix2 b k) = den x W b k := by
  rw [val_main_v14_apply, val_main_cst_2_apply, Ideal.ofBits_def, Ideal.ofBits_zero_f32, zero_add]
  unfold den
  refine Finset.sum_congr rfl fun q _ => ?_
  have e : idx_main_v14 (ix2 b k) q = ix3 b q k := funext fun a => by
    match a with
    | ⟨0, _⟩ => rfl
    | ⟨1, _⟩ => rfl
    | ⟨2, _⟩ => rfl
  rw [e]
  exact v13_at x W b q k

/-- The column's sum with a unit query axis inserted. -/
theorem v15_at (b : Fin 4) (o : Fin 1) (k : Fin 2048) :
    val_main_v15 (F := Ideal) x W (ix3 b o k) = den x W b k := by
  rw [val_main_v15_apply]
  have e : idx_main_v15 (ix3 b o k) = ix2 b k := funext fun a => by
    match a with
    | ⟨0, _⟩ => rfl
    | ⟨1, _⟩ => rfl
  rw [e]
  exact v14_at x W b k

/-- The column's sum repeated down the queries. -/
theorem v16_at (b : Fin 4) (q k : Fin 2048) :
    val_main_v16 (F := Ideal) x W (ix3 b q k) = den x W b k := by
  rw [val_main_v16_apply]
  have e : idx_main_v16 (ix3 b q k) = ix3 b (⟨0, Nat.one_pos⟩ : Fin 1) k := funext fun a => by
    match a with
    | ⟨0, _⟩ => rfl
    | ⟨1, _⟩ => rfl
    | ⟨2, _⟩ => rfl
  rw [e]
  exact v15_at x W b _ k

/-- The weight of key k for query q. -/
theorem v17_at (b : Fin 4) (q k : Fin 2048) :
    val_main_v17 (F := Ideal) x W (ix3 b q k) = attn x W b q k := by
  rw [val_main_v17_apply, v13_at, v16_at]
  rfl

end Cert.ReferenceIdeal.RefValue

end
-- ==== Proof.LibBlockSums.lean ====
/-
  Three re-indexing lemmas for finite sums in an additive commutative monoid.

  * A sum over the indices of a three-axis shape is the triple sum over the three coordinates.
  * A sum over `A * B` rows is the sum over `A` blocks of the sums over the `B` rows of each block
    (row `t * B + r` is row `r` of block `t`).
  * `G` groups of `K` terms each, group `g`'s terms placed in the first `K` slots of an `R × L` array of slots
    (slot `(r, l)` has number `r * L + l`, and a term is selected for a slot by comparing its number with the slot's):
    summing every slot of every group gives the sum of all `G * K` terms.

  Nothing here depends on what the terms are; the lemmas hold in every additive commutative monoid.
-/
import Mathlib.Algebra.BigOperators.Fin
import Mathlib.Algebra.BigOperators.Intervals
import Idealize.ShloMosaic.Lib.ValueIdx

open scoped BigOperators

namespace BlockSums

open Idealize.ShloMosaic Idealize.ShloMosaic.ValueIdx

variable {M : Type*} [AddCommMonoid M]

/-- A rank-3 index set is the product of its three coordinate ranges. -/
def idxEquiv3 {n0 n1 n2 : Nat} : (⟨3, ![n0, n1, n2]⟩ : Shape).Idx ≃ Fin n0 × Fin n1 × Fin n2 where
  toFun j := (j 0, j 1, j 2)
  invFun p := ix3 p.1 p.2.1 p.2.2
  left_inv j := (eq_ix3 j).symm
  right_inv _ := rfl

/-- a sum over the indices of a three-axis shape is the triple sum over its coordinates -/
theorem sum_idx3 {n0 n1 n2 : Nat} (f : (⟨3, ![n0, n1, n2]⟩ : Shape).Idx → M) :
    ∑ j, f j = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Row `r` of block `t`, numbered `t * B + r`, is one of the `A * B` rows. -/
theorem block_row_lt {A B : Nat} (t : Fin A) (r : Fin B) : t.val * B + r.val < A * B :=
  calc t.val * B + r.val < t.val * B + B := Nat.add_lt_add_left r.isLt _
    _ = (t.val + 1) * B := (Nat.succ_mul _ _).symm
    _ ≤ A * B := Nat.mul_le_mul_right _ t.isLt

/-- a sum over N = A·B rows is the sum over A blocks of the sum over the B rows of a block -/
theorem sum_blocks (A B N : Nat) (hN : N = A * B) (g : Fin N → M) :
    ∑ n : Fin N, g n = ∑ t : Fin A, ∑ r : Fin B, g ⟨t.val * B + r.val, by subst hN; exact block_row_lt t r⟩ := by
  subst hN
  rw [← finProdFinEquiv.sum_comp, Fintype.sum_prod_type]
  refine Finset.sum_congr rfl fun t _ => Finset.sum_congr rfl fun r _ => ?_
  congr 1
  apply Fin.ext
  show r.val + B * t.val = t.val * B + r.val
  rw [Nat.mul_comm, Nat.add_comm]

/-- One group: the first `K` terms of a sequence, term `i` selected for the slot numbered `i` of an `R × L` array of
    slots (slot `(r, l)` has number `r * L + l`); when the array has at least `K` slots, summing every slot gives the
    sum of the `K` terms, since each `i < K` is the number of exactly one slot. -/
theorem sum_onehot_slots (R L K : Nat) (hK : K ≤ R * L) (c : Nat → M) :
    ∑ r : Fin R, ∑ l : Fin L, ∑ i ∈ Finset.range K, (if r.val * L + l.val = i then c i else 0)
      = ∑ i ∈ Finset.range K, c i :=
  calc ∑ r : Fin R, ∑ l : Fin L, ∑ i ∈ Finset.range K, (if r.val * L + l.val = i then c i else 0)
      = ∑ r : Fin R, ∑ l : Fin L,
          (fun n : Fin (R * L) => if n.val < K then c n.val else 0) ⟨r.val * L + l.val, block_row_lt r l⟩ := by
        refine Finset.sum_congr rfl fun r _ => Finset.sum_congr rfl fun l _ => ?_
        rw [Finset.sum_ite_eq]
        simp only [Finset.mem_range]
    _ = ∑ n : Fin (R * L), (if n.val < K then c n.val else 0) :=
        (sum_blocks R L (R * L) rfl (fun n : Fin (R * L) => if n.val < K then c n.val else 0)).symm
    _ = ∑ n ∈ Finset.range (R * L), (if n < K then c n else 0) :=
        Fin.sum_univ_eq_sum_range (fun n => if n < K then c n else 0) (R * L)
    _ = ∑ n ∈ Finset.range K, (if n < K then c n else 0) := by
        refine (Finset.sum_subset (Finset.range_subset_range.mpr hK) fun n _ hn => ?_).symm
        exact if_neg fun h => hn (Finset.mem_range.mpr h)
    _ = ∑ n ∈ Finset.range K, c n :=
        Finset.sum_congr rfl fun n hn => if_pos (Finset.mem_range.mp hn)

/-- G groups of K tile sums, group g's sums parked in the first K slots of an R×L slot array (slot (r,l) has number
    r·L + l, one-hot by the slot number): summing every slot of every group gives the sum of all the tile sums -/
theorem sum_slots (G R L K N : Nat) (hK : K ≤ R * L) (hN : N = G * K) (F : Fin N → M) :
    ∑ g : Fin G, ∑ r : Fin R, ∑ l : Fin L, ∑ i ∈ Finset.range K,
        (if r.val * L + l.val = i then (if h : K * g.val + i < N then F ⟨K * g.val + i, h⟩ else 0) else 0)
      = ∑ t : Fin N, F t := by
  rw [sum_blocks G K N hN F]
  refine Finset.sum_congr rfl fun g _ => ?_
  refine (sum_onehot_slots R L K hK
    (fun i => if h : K * g.val + i < N then F ⟨K * g.val + i, h⟩ else 0)).trans ?_
  rw [← Fin.sum_univ_eq_sum_range (fun i => if h : K * g.val + i < N then F ⟨K * g.val + i, h⟩ else 0) K]
  refine Finset.sum_congr rfl fun i _ => ?_
  have h : K * g.val + i.val < N := by
    rw [hN, Nat.mul_comm K g.val]
    exact block_row_lt g i
  rw [dif_pos h]
  congr 1
  apply Fin.ext
  show K * g.val + i.val = g.val * K + i.val
  rw [Nat.mul_comm]

end BlockSums
-- ==== Proof.RefIsG.lean ====
/-
  The reference's result is the specification function: at (b, q, d) the last product sums, over all 2048
  keys at once, weight(b, q, k) · value(b, k, d); cut into 16 blocks of 128 keys (key kt·128 + kk is key kk of
  block kt) it is the specification's sum of block contributions. Regrouping a finite sum is valid in any
  additive commutative monoid, so nothing is asked of the extended reals summed.
-/
import proofs.«136138_j13357348290569_2_alg».proof.Proof.RefSoftmax
import proofs.«136138_j13357348290569_2_alg».proof.Proof.LibBlockSums

open scoped BigOperators

noncomputable section

namespace Cert.ReferenceIdeal.RefValue

open Cert.ReferenceIdeal Cert.ReferenceIdeal.Gen Cert.ReferenceIdeal.Read Idealize.ShloMosaic Idealize.ShloMosaic.ValueIdx Cert.Spec

variable (x : (⟨S4x2048x1024, .f32⟩ : BufTy).Contents (Elt Ideal)) (W : (⟨S1024x3072, .f32⟩ : BufTy).Contents (Elt Ideal))

/-- The last product at (b, q, d) is the sum over all keys of weight times value. -/
theorem v18_sum (b : Fin 4) (q : Fin 2048) (d : Fin 1024) :
    val_main_v18 (F := Ideal) x W (ix3 b q d)
      = ∑ k : Fin 2048, attn x W b q k * proj x W b k (vcol d) := by
  rw [val_main_v18_apply]
  refine Finset.sum_congr rfl fun k _ => ?_
  have el : lidx_main_v18 (ix3 b q d) k = ix3 b q k := funext fun a => by
    match a with
    | ⟨0, _⟩ => rfl
    | ⟨1, _⟩ => rfl
    | ⟨2, _⟩ => rfl
  have er : ridx_main_v18 (ix3 b q d) k = ix3 b k d := funext fun a => by
    match a with
    | ⟨0, _⟩ => rfl
    | ⟨1, _⟩ => rfl
    | ⟨2, _⟩ => rfl
  rw [el, er, v17_at, v3_at]

/-- The same sum taken in 16 blocks of 128 keys is the specification's value at (b, q, d). -/
theorem v18_at (b : Fin 4) (q : Fin 2048) (d : Fin 1024) :
    val_main_v18 (F := Ideal) x W (ix3 b q d) = Gat x W b q d := by
  rw [v18_sum]
  exact BlockSums.sum_blocks 16 128 2048 rfl (fun k : Fin 2048 => attn x W b q k * proj x W b k (vcol d))

/-- The reference's result is the specification function. -/
theorem ref_is_G (x : (⟨S4x2048x1024, .f32⟩ : BufTy).Contents (Elt Ideal)) (W : (⟨S1024x3072, .f32⟩ : BufTy).Contents (Elt Ideal)) :
    Cert.ReferenceIdeal.Read.val_main_v18 (F := Ideal) x W = Cert.Spec.G x W := by
  funext i
  obtain ⟨b, q, d, rfl⟩ : ∃ (b : Fin 4) (q : Fin 2048) (d : Fin 1024), i = ix3 b q d :=
    ⟨i 0, i 1, i 2, eq_ix3 i⟩
  exact (v18_at x W b q d).trans (G_ix3 x W b q d).symm

end Cert.ReferenceIdeal.RefValue

end
-- ==== Proof.lean ====
/-
  The certificate of the query-axis attention kernel against its reference.

  Both programs compute, from activations x[b, s, d] and weights W[d, e], the function written out in Proof/Spec.lean:
  rows are projected by W; the first third of the projected columns are queries, the second keys, the third values;
  the score of a query against a key is their inner product over 32; every KEY column of the scores is normalised
  over the QUERIES (maximum subtracted, exponential, divided by the column's sum); the result is the weighted sum of
  the values over the keys.  The kernel program does this in two grids — the projection by row blocks, then for each
  batch the keys in 16 blocks of 128, each block's contribution added into the output block — and the reference in
  one pass; over the extended reals the two differ only by the grouping of finite sums and by multiplying by 2^-5
  where the reference divides by 32, both of which hold for every extended real, so the precondition is not used.

  The frames: each kernel region's body is run symbolically at a generic grid point (Proof/Region0.lean,
  Proof/Region1.lean), the regions and the host stretches are chained from the launch to the return (Proof/Run.lean),
  and the final memory is read off the last valuation.  The values: Proof/Value0.lean and Proof/Value1.lean read the
  regions' output arrays as functions of their entry arrays, Proof/Glue.lean joins them to the specification, and
  Proof/RefIsG.lean reads the reference's run as the same function.
-/
import proofs.«136138_j13357348290569_2_alg».proof.Defs
import proofs.«136138_j13357348290569_2_alg».proof.Proof.Gen.Kernel
import proofs.«136138_j13357348290569_2_alg».proof.Proof.Gen.KernelIdeal
import proofs.«136138_j13357348290569_2_alg».proof.Proof.Gen.ReferenceIdeal
import proofs.«136138_j13357348290569_2_alg».proof.Proof.Gen.Pre_finite_inputs
import proofs.«136138_j13357348290569_2_alg».proof.Proof.Gen.ReferenceIdeal.Run
import proofs.«136138_j13357348290569_2_alg».proof.Proof.Gen.ReferenceIdeal.Read
import proofs.«136138_j13357348290569_2_alg».proof.Proof.KRun
import proofs.«136138_j13357348290569_2_alg».proof.Proof.Run
import proofs.«136138_j13357348290569_2_alg».proof.Proof.Glue
import proofs.«136138_j13357348290569_2_alg».proof.Proof.RefIsG
import Idealize.ShloMosaic.Adequacy
import Idealize.ShloMosaic.Init

noncomputable section

namespace Cert.Proof

open Idealize.ShloMosaic Idealize.SL.Sem

/-- The word-level kernel program runs and leaves its arguments as launched. -/
theorem frame_k : @Cert.frame_Kernel Cert.Kernel.Gen.facts Cert.Pre_finite_inputs.Gen.facts :=
  fun m ρ _ => Cert.Kernel.Hand.frame m ρ

/-- So does its reading over the extended reals. -/
theorem frame_ki : @Cert.frame_KernelIdeal Cert.KernelIdeal.Gen.facts Cert.Pre_finite_inputs.Gen.facts :=
  fun m ρ _ => Cert.KernelIdeal.Hand.frame m ρ

/-- The reference runs and leaves its arguments as launched: its run with the result dropped. -/
theorem frame_ri : @Cert.frame_ReferenceIdeal Cert.ReferenceIdeal.Gen.facts Cert.Pre_finite_inputs.Gen.facts :=
  fun m ρ _ =>
    (θ_run Cert.ReferenceIdeal.defs _ _).mono (fun _ h c => (h c).2) (Cert.ReferenceIdeal.Value.run (F := Ideal) m ρ)

/-- From memories agreeing on the arguments both programs end with the specification's function of the arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Spec.G (Cert.KernelIdeal.HandValue.xin m c) (Cert.KernelIdeal.HandValue.win m c), ?_, ?_⟩
  · exact (θ_run Cert.KernelIdeal.defs _ _).mono
      (fun _ h c => ⟨(h c).1.trans (Cert.KernelIdeal.HandValue.kernel_is_G m ρ c), (h c).2⟩)
      (Cert.KernelIdeal.Hand.run_result m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2, Cert.ReferenceIdeal.Read.val_main_v18_eq]
    exact Cert.ReferenceIdeal.RefValue.ref_is_G _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
